-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S128x2048 .f32 .bf16
  ∧ IdealRules.truncf_extf.Statement Cert.KernelIdeal.S128x64 .f32 .bf16
  ∧ IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x128 : Shape := ⟨2, ![2048, 128]⟩
abbrev S2048x2048 : Shape := ⟨2, ![2048, 2048]⟩
abbrev S1x2048 : Shape := ⟨2, ![1, 2048]⟩
abbrev S64x2048 : Shape := ⟨2, ![64, 2048]⟩
abbrev S128x2048 : Shape := ⟨2, ![128, 2048]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S128x2048 : S_.BroadcastsInDim S128x2048 (![] : Fin 0 → Fin S128x2048.rank)
  reducesTo_S128x2048_S_d0_1 : S128x2048.ReducesTo [0, 1] S_

variable [Facts]

def fn_part2 {F : FTy → Type} [FloatOps F] (main_arg7 : FVec F S64x2048 .f32) (main_arg8 : FVec F S128x2048 .f32) (main_arg9 : FVec F S2048x2048 .f32) (main_v33 : IVec S_ 1) : IVec S_ 1 :=
  let main_v34 : FVec F S64x2048 .f32 := Host.absf main_arg7
  let main_cst_12 : FVec F S_ .f32 := constant S_ .f32 0x7F800000#32
  let main_v35 : FVec F S64x2048 .f32 := broadcastInDim S64x2048 ![] bcast_S_S64x2048 main_cst_12
  let main_v36 : IVec S64x2048 1 := cmpf .olt main_v34 main_v35
  let main_c_13 : IVec S_ 1 := constantI S_ 1 1#1
  let main_v37 : IVec S_ 1 := (fun x v => Host.reduce IntOp.andi x v reducesTo_S64x2048_S_d0_1 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  main_v48

def fn_part1 {F : FTy → Type} [FloatOps F] (main_arg4 : FVec F S2048x2048 .f32) (main_arg5 : FVec F S1x2048 .f32) (main_arg6 : FVec F S2048x64 .f32) (main_arg7 : FVec F S64x2048 .f32) (main_arg8 : FVec F S128x2048 .f32) (main_arg9 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S2048x64 .f32 := Host.absf main_arg6
  let main_cst_10 : FVec F S_ .f32 := constant S_ .f32 0x7F800000#32
  let main_v30 : FVec F S2048x64 .f32 := broadcastInDim S2048x64 ![] bcast_S_S2048x64 main_cst_10
  let main_v31 : IVec S2048x64 1 := cmpf .olt main_v29 main_v30
  let main_c_11 : IVec S_ 1 := constantI S_ 1 1#1
  let main_v32 : IVec S_ 1 := (fun x v => Host.reduce IntOp.andi x v reducesTo_S2048x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x64 .f32) (main_arg1 : FVec F S2048x128 .f32) (main_arg2 : FVec F S2048x2048 .f32) (main_arg3 : FVec F S2048x2048 .f32) (main_arg4 : FVec F S2048x2048 .f32) (main_arg5 : FVec F S1x2048 .f32) (main_arg6 : FVec F S2048x64 .f32) (main_arg7 : FVec F S64x2048 .f32) (main_arg8 : FVec F S128x2048 .f32) (main_arg9 : FVec F S2048x2048 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_v13 main_v16
-- ==== Kernel.lean ====
abbrev S2048x64 : Shape := ⟨2, ![2048, 64]⟩
abbrev S2048x128 : Shape := ⟨2, ![2048, 128]⟩
abbrev S2048x2048 : Shape := ⟨2, ![2048, 2048]⟩
abbrev S1x2048 : Shape := ⟨2, ![1, 2048]⟩
abbrev S64x2048 : Shape := ⟨2, ![64, 2048]⟩
abbrev S128x2048 : Shape := ⟨2, ![128, 2048]⟩
abbrev S128x64 : Shape := ⟨2, ![128, 64]⟩
abbrev S128x128 : Shape := ⟨2, ![128, 128]⟩

abbrev nBuf : Space → Nat
  | .hbm => 30
  | .vmem => 23
  | .smem => 0
  | _ => 0

abbrev bufTy : (tb : Table) → Fin (tcTables nBuf tb) → BufTy
  | .hbm, ⟨0, _⟩ => ⟨S2048x64, .f32⟩
  | .hbm, ⟨1, _⟩ => ⟨S2048x128, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x64, .f32⟩
  | .hbm, ⟨7, _⟩ => ⟨S64x2048, .f32⟩
  | .hbm, ⟨8, _⟩ => ⟨S128x2048, .f32⟩
  | .hbm, ⟨9, _⟩ => ⟨S2048x2048, .f32⟩
  | .hbm, ⟨10, _⟩ => ⟨S2048x64, .f32⟩
  | .hbm, ⟨11, _⟩ => ⟨S64x2048, .f32⟩
  | .hbm, ⟨12, _⟩ => ⟨S2048x2048, .bf16⟩
  | .hbm, ⟨13, _⟩ => ⟨S2048x2048, .f32⟩
  | .hbm, ⟨14, _⟩ => ⟨S2048x2048, .f32⟩
  | .hbm, ⟨15, _⟩ => ⟨S2048x2048, .bf16⟩
  | .hbm, ⟨16, _⟩ => ⟨S2048x64, .bf16⟩
  | .hbm, ⟨17, _⟩ => ⟨S2048x64, .f32⟩
  | .hbm, ⟨18, _⟩ => ⟨S2048x64, .f32⟩
  | .hbm, ⟨19, _⟩ => ⟨S2048x64, .bf16⟩
  | .hbm, ⟨20, _⟩ => ⟨S64x2048, .bf16⟩
  | .hbm, ⟨21, _⟩ => ⟨S64x2048, .f32⟩
  | .hbm, ⟨22, _⟩ => ⟨S64x2048, .f32⟩
  | .hbm, ⟨23, _⟩ => ⟨S64x2048, .bf16⟩
  | .hbm, ⟨24, _⟩ => ⟨S128x2048, .bf16⟩
  | .hbm, ⟨25, _⟩ => ⟨S128x2048, .f32⟩
  | .hbm, ⟨26, _⟩ => ⟨S128x2048, .f32⟩
  | .hbm, ⟨27, _⟩ => ⟨S128x2048, .bf16⟩
  | .hbm, ⟨28, _⟩ => ⟨S2048x2048, .f32⟩
  | .hbm, ⟨29, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x64, .bf16⟩
  | .local _ .vmem, ⟨5, _⟩ => ⟨S2048x64, .bf16⟩
  | .local _ .vmem, ⟨6, _⟩ => ⟨S64x2048, .bf16⟩
  | .local _ .vmem, ⟨7, _⟩ => ⟨S64x2048, .bf16⟩
  | .local _ .vmem, ⟨8, _⟩ => ⟨S128x64, .f32⟩
  | .local _ .vmem, ⟨9, _⟩ => ⟨S128x64, .f32⟩
  | .local _ .vmem, ⟨10, _⟩ => ⟨S128x128, .f32⟩
  | .local _ .vmem, ⟨11, _⟩ => ⟨S128x128, .f32⟩
  | .local _ .vmem, ⟨12, _⟩ => ⟨S128x2048, .bf16⟩
  | .local _ .vmem, ⟨13, _⟩ => ⟨S128x2048, .bf16⟩
  | .local _ .vmem, ⟨14, _⟩ => ⟨S1x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S64x2048_S2048x64_1_0 : S64x2048.Transposes [1, 0] S2048x64
  transposes_S2048x64_S64x2048_1_0 : S2048x64.Transposes [1, 0] S64x2048
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S128x64_S128x64_0_0 : ∀ a, (![0, 0] : Fin 2 → Nat) a + S128x64.size a ≤ S128x64.size a
  h_S128x64 : 0 < S128x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S128x128_S128x128_0_0 : ∀ a, (![0, 0] : Fin 2 → Nat) a + S128x128.size a ≤ S128x128.size a
  h_S128x128 : 0 < S128x128.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  broadcasts_S1x2048_S128x2048 : S1x2048.Broadcasts S128x2048
  dot_S128x2048_S2048x2048_S128x2048_1_0_0_1_n_n_wf : DotDims.WF S128x2048 S2048x2048 S128x2048 [1] [0] [0] [1] [] []
  dot_S128x2048_S2048x64_S128x64_1_0_0_1_n_n_wf : DotDims.WF S128x2048 S2048x64 S128x64 [1] [0] [0] [1] [] []
  dot_S128x64_S64x2048_S128x2048_1_0_0_1_n_n_wf : DotDims.WF S128x64 S64x2048 S128x2048 [1] [0] [0] [1] [] []
  dot_S128x128_S128x2048_S128x2048_1_0_0_1_n_n_wf : DotDims.WF S128x128 S128x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .f32 = 32 ∨ (Rect.block (s := S2048x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .bf16 = 32 ∨ (Rect.block (s := S2048x64) S2048x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S2048x64.size a
  hwx0_4 : ∀ i : grid0.Coords, EltTy.bits .bf16 = 32 ∨ (Rect.block (s := S2048x64) S2048x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .bf16 = 32 ∨ (Rect.block (s := S64x2048) S64x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S64x2048.size a
  hwx0_6 : ∀ i : grid0.Coords, EltTy.bits .bf16 = 32 ∨ (Rect.block (s := S64x2048) S64x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S2048x64.size a
  hwx0_7 : ∀ i : grid0.Coords, EltTy.bits .f32 = 32 ∨ (Rect.block (s := S2048x64) S128x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S2048x128.size a
  hwx0_8 : ∀ i : grid0.Coords, EltTy.bits .f32 = 32 ∨ (Rect.block (s := S2048x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S128x2048.size a
  hwx0_9 : ∀ i : grid0.Coords, EltTy.bits .bf16 = 32 ∨ (Rect.block (s := S128x2048) S128x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S128x2048.size a
  hwx0_10 : ∀ i : grid0.Coords, EltTy.bits .bf16 = 32 ∨ (Rect.block (s := S128x2048) S128x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x2048.size a ≤ S2048x2048.size a
  hwx0_12 : ∀ i : grid0.Coords, EltTy.bits .f32 = 32 ∨ (Rect.block (s := S2048x2048) S128x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x2048.size a ≤ S2048x2048.size a
  hwx0_13 : ∀ i : grid0.Coords, EltTy.bits .f32 = 32 ∨ (Rect.block (s := S2048x2048) S128x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x2048.size a ≤ S2048x2048.size a
  hwx0_14 : ∀ i : grid0.Coords, EltTy.bits .f32 = 32 ∨ (Rect.block (s := S2048x2048) S128x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x2048.size a ≤ S2048x2048.size a
  hwx0_15 : ∀ i : grid0.Coords, EltTy.bits .f32 = 32 ∨ (Rect.block (s := S2048x2048) S128x2048.size (cc0_transform_15 i) (hinb0_15 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf
def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf
def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf

abbrev win0_0 : Pipeline.Window sig grid0 :=
  Pipeline.Window.ofSpec (Memref.whole main_arg3) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S128x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S128x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14) S128x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S128x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg5) S1x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S128x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg2) S128x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v18_0) S128x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_1) S128x2048.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where
  halias0_14 : Pipeline.Aliased win0 13 14

variable [Facts]
-- ==== ReferenceIdeal.lean ====
abbrev S2048x64 : Shape := ⟨2, ![2048, 64]⟩
abbrev S2048x128 : Shape := ⟨2, ![2048, 128]⟩
abbrev S2048x2048 : Shape := ⟨2, ![2048, 2048]⟩
abbrev S1x2048 : Shape := ⟨2, ![1, 2048]⟩
abbrev S64x2048 : Shape := ⟨2, ![64, 2048]⟩
abbrev S128x2048 : Shape := ⟨2, ![128, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x128, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x64, .f32⟩
  | .hbm, ⟨7, _⟩ => ⟨S64x2048, .f32⟩
  | .hbm, ⟨8, _⟩ => ⟨S128x2048, .f32⟩
  | .hbm, ⟨9, _⟩ => ⟨S2048x2048, .f32⟩
  | .hbm, ⟨10, _⟩ => ⟨S2048x2048, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S64x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .i1⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v19 : Ref sig .tc := ⟨.hbm, 44, rfl⟩

abbrev nD : Nat := 1
abbrev τ : Topo := Topo.v7x

variable {F : FTy → Type} [FloatOps F]

class Facts₀ : Prop where
  transposes_S64x2048_S2048x64_1_0 : S64x2048.Transposes [1, 0] S2048x64
  transposes_S2048x64_S64x2048_1_0 : S2048x64.Transposes [1, 0] S64x2048
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  dot_S2048x128_S128x2048_S2048x2048_1_0_0_1_n_n_wf : DotDims.WF S2048x128 S128x2048 S2048x2048 [1] [0] [0] [1] [] []
  dot_S2048x2048_S2048x64_S2048x64_1_0_0_1_n_n_wf : DotDims.WF S2048x2048 S2048x64 S2048x64 [1] [0] [0] [1] [] []
  dot_S2048x64_S64x2048_S2048x2048_1_0_0_1_n_n_wf : DotDims.WF S2048x64 S64x2048 S2048x2048 [1] [0] [0] [1] [] []
  dot_S2048x2048_S2048x2048_S2048x2048_1_0_0_1_n_n_wf : DotDims.WF S2048x2048 S2048x2048 S2048x2048 [1] [0] [0] [1] [] []

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.LibSplitSum.lean ====
/-
  Extended-real facts behind a three-term split product.

  A number `a` written as `hi + lo` with `hi = a` and `lo = a - a` has `lo = 0` as soon as `a` is finite; a sum of
  products in which one factor of every term is that `lo` is then `0`, and the three-term expansion
  `hi·hi' + hi·lo' + lo·hi'` of a product of two such numbers collapses to the plain product. Finiteness is what the
  collapse needs (`⊤ - ⊤` is not `0`), so the file also records that products and finite sums of finite
  extended reals are finite.
-/
import Mathlib.Data.EReal.Basic
import Mathlib.Data.EReal.Operations
import Mathlib.Algebra.BigOperators.Group.Finset.Basic

namespace Cert.LibSplitSum

open scoped BigOperators

/-- An extended real that is a real number. -/
def Fin' (x : EReal) : Prop := ∃ r : ℝ, x = (r : EReal)

/-- A real is not `⊤`. -/
theorem Fin'.ne_top {x : EReal} (h : Fin' x) : x ≠ ⊤ := by
  obtain ⟨r, rfl⟩ := h; exact EReal.coe_ne_top r

/-- A real is not `⊥`. -/
theorem Fin'.ne_bot {x : EReal} (h : Fin' x) : x ≠ ⊥ := by
  obtain ⟨r, rfl⟩ := h; exact EReal.coe_ne_bot r

/-- An extended real that is neither infinity is a real. -/
theorem fin'_of_ne {x : EReal} (h₁ : x ≠ ⊤) (h₂ : x ≠ ⊥) : Fin' x :=
  ⟨x.toReal, (EReal.coe_toReal h₁ h₂).symm⟩

/-- A finite number minus itself is zero. -/
theorem Fin'.sub_self {x : EReal} (h : Fin' x) : x - x = 0 := by
  obtain ⟨r, rfl⟩ := h
  rw [← EReal.coe_sub, _root_.sub_self, EReal.coe_zero]

/-- A product of reals is a real. -/
theorem Fin'.mul {x y : EReal} (hx : Fin' x) (hy : Fin' y) : Fin' (x * y) := by
  obtain ⟨r, rfl⟩ := hx; obtain ⟨s, rfl⟩ := hy
  exact ⟨r * s, (EReal.coe_mul r s).symm⟩

/-- A sum of two reals is a real. -/
theorem Fin'.add {x y : EReal} (hx : Fin' x) (hy : Fin' y) : Fin' (x + y) := by
  obtain ⟨r, rfl⟩ := hx; obtain ⟨s, rfl⟩ := hy
  exact ⟨r + s, (EReal.coe_add r s).symm⟩

/-- Zero is a real. -/
theorem fin'_zero : Fin' 0 := ⟨0, EReal.coe_zero.symm⟩

/-- A finite sum of finite numbers is finite. -/
theorem fin'_sum {ι : Type*} (s : Finset ι) (f : ι → EReal) (h : ∀ k, Fin' (f k)) : Fin' (∑ k ∈ s, f k) := by
  classical
  induction s using Finset.induction_on with
  | empty => simpa using fin'_zero
  | insert a s ha ih => rw [Finset.sum_insert ha]; exact (h a).add ih

/-- A sum of products of finite numbers is finite. -/
theorem fin'_sum_mul {ι : Type*} [Fintype ι] (a b : ι → EReal) (ha : ∀ k, Fin' (a k)) (hb : ∀ k, Fin' (b k)) :
    Fin' (∑ k, a k * b k) :=
  fin'_sum _ _ fun k => (ha k).mul (hb k)

/-- A sum of products whose right factors are all zero is zero. -/
theorem sum_mul_zero {ι : Type*} [Fintype ι] (a b : ι → EReal) (hb : ∀ k, b k = 0) : (∑ k, a k * b k) = 0 :=
  Finset.sum_eq_zero fun k _ => by rw [hb k, mul_zero]

/-- A sum of products whose left factors are all zero is zero. -/
theorem sum_zero_mul {ι : Type*} [Fintype ι] (a b : ι → EReal) (ha : ∀ k, a k = 0) : (∑ k, a k * b k) = 0 :=
  Finset.sum_eq_zero fun k _ => by rw [ha k, zero_mul]

/-- The three-term split product collapses: with the low part of the right factor zero and the left factor finite
    (so that its own low part `a - a` is zero), `Σ a·b + Σ a·lo + Σ (a - a)·b = Σ a·b`. -/
theorem split3 {ι : Type*} [Fintype ι] (a b lo : ι → EReal) (ha : ∀ k, Fin' (a k)) (hlo : ∀ k, lo k = 0) :
    ((∑ k, a k * b k) + (∑ k, a k * lo k)) + (∑ k, (a k - a k) * b k) = ∑ k, a k * b k := by
  rw [sum_mul_zero a lo hlo, sum_zero_mul (fun k => a k - a k) b (fun k => (ha k).sub_self), add_zero, add_zero]

end Cert.LibSplitSum
-- ==== Proof.RowSpec.lean ====
/-
  One row of the recurrent update, as a function on the extended reals.

  Row `r` of the new state depends on row `r` of the state `x`, of the rates, of the gating factors, of the stimulus
  and of the noise, and on the whole of the four weight matrices and the bias:

    x' q = x q + c · ( ((((-x q + Σ_k r k · J k q) + Σ_j (g j · Σ_k r k · Vt k j) · Ut j q) + b q) + Σ_k s k · W k q) + σ · e q ).

  `rowSpec` is this function. `rowKernel` is the same row with every product written as the three-term split
  `a·hi + a·lo + (a - a)·hi`, the low parts being separate matrices. When the low parts are zero and the left
  factors are finite the two agree (`rowKernel_eq`): each `a - a` is `0` and each low sum is `0`. The rank-64
  intermediate `g j · Σ_k r k · Vt k j` is itself split, so its finiteness is needed too; it follows from that of
  `r`, `g` and `Vt`.

  The second result of the step is a soft-plus of the first, `max z 0 + log(1 + exp(-|z - 0|))` behind a
  never-taken guard `z - 0 ≠ z - 0`; one side writes `-|d|` as `0 - |d|` and tests with the ordered
  predicate, the other with the unordered one: on the extended reals these are the same function (`softK_eq`).
-/
import Idealize.ShloMosaic.PureOps.Ideal
import Idealize.ShloMosaic.PureOps.Ideal.Laws
import proofs.«105457_j18116172054562_2_alg».proof.Proof.LibSplitSum

noncomputable section

namespace Cert.RowSpec

open Idealize.ShloMosaic Cert.LibSplitSum
open scoped BigOperators

/-- The step size `dt/tau` as both programs carry it: the binary32 word nearest one third. -/
abbrev cStep : EReal := Ideal.ofBits .f32 0x3EAAAAAB#32
/-- The noise scale as both programs carry it. -/
abbrev cSigma : EReal := Ideal.ofBits .f32 0x3F5105EC#32

/-- The rank-64 intermediate of one row: the gating factor times the rates' projection. -/
def gated (rr : Fin 2048 → EReal) (g : Fin 64 → EReal) (Vt : Fin 2048 → Fin 64 → EReal) (j : Fin 64) : EReal :=
  g j * ∑ k : Fin 2048, rr k * Vt k j

/-- One row of the new state at column `q`. -/
def rowSpec (xr rr : Fin 2048 → EReal) (g : Fin 64 → EReal) (st : Fin 128 → EReal) (er : Fin 2048 → EReal)
    (J : Fin 2048 → Fin 2048 → EReal) (Vt : Fin 2048 → Fin 64 → EReal) (Ut : Fin 64 → Fin 2048 → EReal)
    (W : Fin 128 → Fin 2048 → EReal) (b : Fin 2048 → EReal) (q : Fin 2048) : EReal :=
  xr q + cStep * ((((((-(xr q)) + ∑ k : Fin 2048, rr k * J k q) + ∑ j : Fin 64, gated rr g Vt j * Ut j q) + b q)
      + ∑ k : Fin 128, st k * W k q) + cSigma * er q)

/-- The split form of the rank-64 intermediate. -/
def gatedK (rr : Fin 2048 → EReal) (g : Fin 64 → EReal) (Vh Vl : Fin 2048 → Fin 64 → EReal) (j : Fin 64) : EReal :=
  g j * (((∑ k : Fin 2048, rr k * Vh k j) + ∑ k : Fin 2048, rr k * Vl k j) + ∑ k : Fin 2048, (rr k - rr k) * Vh k j)

/-- The same row with every product in its three-term split form, `z0` the zero the negation is taken from. -/
def rowKernel (z0 : EReal) (xr rr : Fin 2048 → EReal) (g : Fin 64 → EReal) (st : Fin 128 → EReal) (er : Fin 2048 → EReal)
    (Jh Jl : Fin 2048 → Fin 2048 → EReal) (Vh Vl : Fin 2048 → Fin 64 → EReal) (Uh Ul : Fin 64 → Fin 2048 → EReal)
    (Wh Wl : Fin 128 → Fin 2048 → EReal) (b : Fin 2048 → EReal) (q : Fin 2048) : EReal :=
  xr q + cStep * ((((((z0 - xr q)
      + (((∑ k : Fin 2048, rr k * Jh k q) + ∑ k : Fin 2048, rr k * Jl k q) + ∑ k : Fin 2048, (rr k - rr k) * Jh k q))
      + (((∑ j : Fin 64, gatedK rr g Vh Vl j * Uh j q) + ∑ j : Fin 64, gatedK rr g Vh Vl j * Ul j q)
          + ∑ j : Fin 64, (gatedK rr g Vh Vl j - gatedK rr g Vh Vl j) * Uh j q))
      + b q)
      + (((∑ k : Fin 128, st k * Wh k q) + ∑ k : Fin 128, st k * Wl k q) + ∑ k : Fin 128, (st k - st k) * Wh k q))
      + cSigma * er q)

theorem gatedK_eq (rr : Fin 2048 → EReal) (g : Fin 64 → EReal) (Vh Vl : Fin 2048 → Fin 64 → EReal)
    (hr : ∀ k, Fin' (rr k)) (hVl : ∀ k j, Vl k j = 0) (j : Fin 64) : gatedK rr g Vh Vl j = gated rr g Vh j := by
  unfold gatedK gated
  rw [split3 rr (fun k => Vh k j) (fun k => Vl k j) hr (fun k => hVl k j)]

theorem gated_fin (rr : Fin 2048 → EReal) (g : Fin 64 → EReal) (Vt : Fin 2048 → Fin 64 → EReal)
    (hr : ∀ k, Fin' (rr k)) (hg : ∀ j, Fin' (g j)) (hV : ∀ k j, Fin' (Vt k j)) (j : Fin 64) : Fin' (gated rr g Vt j) :=
  (hg j).mul (fin'_sum_mul rr (fun k => Vt k j) hr (fun k => hV k j))

/-- With zero low parts and finite left factors the split row is the plain row. -/
theorem rowKernel_eq (z0 : EReal) (hz : z0 = 0) (xr rr : Fin 2048 → EReal) (g : Fin 64 → EReal) (st : Fin 128 → EReal)
    (er : Fin 2048 → EReal) (Jh Jl : Fin 2048 → Fin 2048 → EReal) (Vh Vl : Fin 2048 → Fin 64 → EReal)
    (Uh Ul : Fin 64 → Fin 2048 → EReal) (Wh Wl : Fin 128 → Fin 2048 → EReal) (b : Fin 2048 → EReal) (q : Fin 2048)
    (hr : ∀ k, Fin' (rr k)) (hg : ∀ j, Fin' (g j)) (hs : ∀ k, Fin' (st k)) (hV : ∀ k j, Fin' (Vh k j))
    (hJl : ∀ k q, Jl k q = 0) (hVl : ∀ k j, Vl k j = 0) (hUl : ∀ j q, Ul j q = 0) (hWl : ∀ k q, Wl k q = 0) :
    rowKernel z0 xr rr g st er Jh Jl Vh Vl Uh Ul Wh Wl b q = rowSpec xr rr g st er Jh Vh Uh Wh b q := by
  unfold rowKernel rowSpec
  have hG : ∀ j, gatedK rr g Vh Vl j = gated rr g Vh j := gatedK_eq rr g Vh Vl hr hVl
  have hGf : ∀ j, Fin' (gated rr g Vh j) := gated_fin rr g Vh hr hg hV
  simp only [hG]
  rw [split3 rr (fun k => Jh k q) (fun k => Jl k q) hr (fun k => hJl k q),
    split3 (gated rr g Vh) (fun j => Uh j q) (fun j => Ul j q) hGf (fun j => hUl j q),
    split3 st (fun k => Wh k q) (fun k => Wl k q) hs (fun k => hWl k q), hz, zero_sub]

/-! ## The soft-plus of the new state -/

/-- The soft-plus as the host writes it: guard on the unordered predicate, `-|d|` by negation. -/
def softR (z0 z : EReal) : EReal :=
  Scalar.select (Ideal.cmp .une (z - z0) (z - z0)) (z + z0)
    (max z z0 + Ideal.log1p (Ideal.exp (-(FloatOps.absf (F := Ideal) (φ := .f32) (z - z0)))))

/-- The soft-plus as the kernel body writes it: guard on the ordered predicate, `-|d|` as `0 - |d|`. -/
def softK (z0 z : EReal) : EReal :=
  Scalar.select (Ideal.cmp .one (z - z0) (z - z0)) (z + z0)
    (max z z0 + Ideal.log1p (Ideal.exp (z0 - (FloatOps.absf (F := Ideal) (φ := .f32) (z - z0)))))

theorem softK_eq (z0 : EReal) (hz : z0 = 0) (z : EReal) : softK z0 z = softR z0 z := by
  unfold softK softR
  have h : Ideal.cmp .one (z - z0) (z - z0) = Ideal.cmp .une (z - z0) (z - z0) := rfl
  rw [h]
  congr 4
  rw [hz, zero_sub]

end Cert.RowSpec
-- ==== Proof.Spec.lean ====
/-
  The two results of the step as functions of the ten argument arrays, entry by entry.

  Entry `(r, q)` of the new state is the row function of row `r` of the state, rates, gates, stimulus and noise and
  of the weights, the two low-rank factors read through their transposes; the second result is the soft-plus of the
  first. Both programs are shown to end at these two functions.
-/
import proofs.«105457_j18116172054562_2_alg».proof.Proof.RowSpec
import Idealize.ShloMosaic.Lib.ValueIdx

noncomputable section

namespace Cert.Spec

open Idealize.ShloMosaic Idealize.ShloMosaic.ValueIdx Cert.RowSpec

/-- The new state: gates `a0`, stimulus `a1`, state `a2`, rates `a3`, recurrent weights `a4`, bias `a5`, the low-rank
    factors `a6` (2048 by 64) and `a7` (64 by 2048), stimulus weights `a8`, noise `a9`. -/
def xnew (a0 : (⟨2, ![2048, 64]⟩ : Shape).Idx → EReal) (a1 : (⟨2, ![2048, 128]⟩ : Shape).Idx → EReal) (a2 a3 a4 : (⟨2, ![2048, 2048]⟩ : Shape).Idx → EReal) (a5 : (⟨2, ![1, 2048]⟩ : Shape).Idx → EReal)
    (a6 : (⟨2, ![2048, 64]⟩ : Shape).Idx → EReal) (a7 : (⟨2, ![64, 2048]⟩ : Shape).Idx → EReal) (a8 : (⟨2, ![128, 2048]⟩ : Shape).Idx → EReal) (a9 : (⟨2, ![2048, 2048]⟩ : Shape).Idx → EReal) : (⟨2, ![2048, 2048]⟩ : Shape).Idx → EReal :=
  fun i => rowSpec (fun q' => a2 (ix2 (i 0) q')) (fun k => a3 (ix2 (i 0) k)) (fun j => a0 (ix2 (i 0) j)) (fun k => a1 (ix2 (i 0) k))
    (fun q' => a9 (ix2 (i 0) q')) (fun k q' => a4 (ix2 k q')) (fun k j => a7 (ix2 j k)) (fun j q' => a6 (ix2 q' j))
    (fun k q' => a8 (ix2 k q')) (fun q' => a5 (ix2 (0 : Fin 1) q')) (i 1)

/-- The new rates: the soft-plus of the new state. -/
def rnew (a0 : (⟨2, ![2048, 64]⟩ : Shape).Idx → EReal) (a1 : (⟨2, ![2048, 128]⟩ : Shape).Idx → EReal) (a2 a3 a4 : (⟨2, ![2048, 2048]⟩ : Shape).Idx → EReal) (a5 : (⟨2, ![1, 2048]⟩ : Shape).Idx → EReal)
    (a6 : (⟨2, ![2048, 64]⟩ : Shape).Idx → EReal) (a7 : (⟨2, ![64, 2048]⟩ : Shape).Idx → EReal) (a8 : (⟨2, ![128, 2048]⟩ : Shape).Idx → EReal) (a9 : (⟨2, ![2048, 2048]⟩ : Shape).Idx → EReal) : (⟨2, ![2048, 2048]⟩ : Shape).Idx → EReal :=
  fun i => softR (Ideal.ofBits .f32 0x00000000#32) (xnew a0 a1 a2 a3 a4 a5 a6 a7 a8 a9 i)

end Cert.Spec
-- ==== Proof.RefRow.lean ====
/-
  The reference's two results, read one row at a time.

  At row `r` and column `q` the reference's new state is `rowSpec` of row `r` of the state, the rates, the gates,
  the stimulus and the noise, with the weights read as the reference reads them: `J` and the stimulus weights as
  given, the two low-rank factors through their transposes (`Vt k j = V j k`, `Ut j q = U q j`), the bias on its
  one row. Its second result is the soft-plus of the first, entry by entry.
-/
import proofs.«105457_j18116172054562_2_alg».proof.Proof.Gen.ReferenceIdeal.Read
import proofs.«105457_j18116172054562_2_alg».proof.Proof.RowSpec
import proofs.«105457_j18116172054562_2_alg».proof.Proof.Spec

noncomputable section

namespace Cert.RefRow

open Cert.ReferenceIdeal Cert.ReferenceIdeal.Read Idealize.ShloMosaic Idealize.ShloMosaic.ValueIdx Cert.RowSpec
open scoped BigOperators

variable (x0 : (⟨S2048x64, .f32⟩ : BufTy).Contents (Elt Ideal)) (x1 : (⟨S2048x128, .f32⟩ : BufTy).Contents (Elt Ideal))
  (x2 x3 x4 : (⟨S2048x2048, .f32⟩ : BufTy).Contents (Elt Ideal)) (x5 : (⟨S1x2048, .f32⟩ : BufTy).Contents (Elt Ideal))
  (x6 : (⟨S2048x64, .f32⟩ : BufTy).Contents (Elt Ideal)) (x7 : (⟨S64x2048, .f32⟩ : BufTy).Contents (Elt Ideal))
  (x8 : (⟨S128x2048, .f32⟩ : BufTy).Contents (Elt Ideal)) (x9 : (⟨S2048x2048, .f32⟩ : BufTy).Contents (Elt Ideal))

/-! The operand indices of each product, transpose and broadcast, at a result index given by its coordinates. -/

theorem l0 (r q : Fin 2048) (k : Fin 128) : lidx_main_v0 (ix2 r q) k = ix2 r k :=
  funext fun a => Fin.ext (by match a with | ⟨0, _⟩ => rfl | ⟨1, _⟩ => rfl)
theorem r0 (r q : Fin 2048) (k : Fin 128) : ridx_main_v0 (ix2 r q) k = ix2 k q :=
  funext fun a => Fin.ext (by match a with | ⟨0, _⟩ => rfl | ⟨1, _⟩ => rfl)
theorem t1 (k : Fin 2048) (j : Fin 64) : idx_main_v1 (ix2 k j) = ix2 j k :=
  funext fun a => Fin.ext (by match a with | ⟨0, _⟩ => rfl | ⟨1, _⟩ => rfl)
theorem l2 (r : Fin 2048) (j : Fin 64) (k : Fin 2048) : lidx_main_v2 (ix2 r j) k = ix2 r k :=
  funext fun a => Fin.ext (by match a with | ⟨0, _⟩ => rfl | ⟨1, _⟩ => rfl)
theorem r2 (r : Fin 2048) (j : Fin 64) (k : Fin 2048) : ridx_main_v2 (ix2 r j) k = ix2 k j :=
  funext fun a => Fin.ext (by match a with | ⟨0, _⟩ => rfl | ⟨1, _⟩ => rfl)
theorem t4 (j : Fin 64) (q : Fin 2048) : idx_main_v4 (ix2 j q) = ix2 q j :=
  funext fun a => Fin.ext (by match a with | ⟨0, _⟩ => rfl | ⟨1, _⟩ => rfl)
theorem l5 (r q : Fin 2048) (j : Fin 64) : lidx_main_v5 (ix2 r q) j = ix2 r j :=
  funext fun a => Fin.ext (by match a with | ⟨0, _⟩ => rfl | ⟨1, _⟩ => rfl)
theorem r5 (r q : Fin 2048) (j : Fin 64) : ridx_main_v5 (ix2 r q) j = ix2 j q :=
  funext fun a => Fin.ext (by match a with | ⟨0, _⟩ => rfl | ⟨1, _⟩ => rfl)
theorem l7 (r q k : Fin 2048) : lidx_main_v7 (ix2 r q) k = ix2 r k :=
  funext fun a => Fin.ext (by match a with | ⟨0, _⟩ => rfl | ⟨1, _⟩ => rfl)
theorem r7 (r q k : Fin 2048) : ridx_main_v7 (ix2 r q) k = ix2 k q :=
  funext fun a => Fin.ext (by match a with | ⟨0, _⟩ => rfl | ⟨1, _⟩ => rfl)
theorem b10 (r q : Fin 2048) : idx_main_v10 (ix2 r q) = ix2 (0 : Fin 1) q :=
  funext fun a => Fin.ext (by match a with | ⟨0, _⟩ => rfl | ⟨1, _⟩ => rfl)

/-- The reference's new state at `(r, q)` is the row function of row `r`. -/
theorem xnew_row (r q : Fin 2048) :
    val_main_v18 (F := Ideal) x0 x1 x2 x3 x4 x5 x6 x7 x8 x9 (ix2 r q)
      = rowSpec (fun q' => x2 (ix2 r q')) (fun k => x3 (ix2 r k)) (fun j => x0 (ix2 r j)) (fun k => x1 (ix2 r k))
          (fun q' => x9 (ix2 r q')) (fun k q' => x4 (ix2 k q')) (fun k j => x7 (ix2 j k)) (fun j q' => x6 (ix2 q' j))
          (fun k q' => x8 (ix2 k q')) (fun q' => x5 (ix2 (0 : Fin 1) q')) q := by
  simp only [val_main_v18_apply, val_main_v17_apply, val_main_v16_apply, val_main_cst_0_apply, val_main_v15_apply,
    val_main_v14_apply, val_main_v13_apply, val_main_cst_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply,
    l0, r0, t1, l2, r2, t4, l5, r5, l7, r7, b10]
  unfold rowSpec gated
  rfl

/-- The reference's second result is the soft-plus of its first, entry by entry. -/
theorem rnew_row (i : S2048x2048.Idx) :
    val_main_v19 (F := Ideal) x0 x1 x2 x3 x4 x5 x6 x7 x8 x9 i
      = softR (Ideal.ofBits .f32 0x00000000#32) (val_main_v18 (F := Ideal) x0 x1 x2 x3 x4 x5 x6 x7 x8 x9 i) := by
  simp only [val_main_v19_apply, val_main_call0_v11_apply, val_main_call0_v10_apply, val_main_call0_v9_apply,
    val_main_call0_v8_apply, val_main_call0_v7_apply, val_main_call0_v6_apply, val_main_call0_v5_apply,
    val_main_call0_v4_apply, val_main_call0_v3_apply, val_main_call0_v2_apply, val_main_call0_v1_apply,
    val_main_call0_v0_apply, val_main_call0_cst_apply]
  rfl

/-- The reference's first result is the specification's new state. -/
theorem ref_xnew : val_main_v18 (F := Ideal) x0 x1 x2 x3 x4 x5 x6 x7 x8 x9 = Spec.xnew x0 x1 x2 x3 x4 x5 x6 x7 x8 x9 := by
  funext i
  obtain ⟨r, q, rfl⟩ : ∃ (r q : Fin 2048), i = ix2 r q := ⟨i 0, i 1, eq_ix2 i⟩
  exact xnew_row x0 x1 x2 x3 x4 x5 x6 x7 x8 x9 r q

/-- The reference's second result is the specification's new rates. -/
theorem ref_rnew : val_main_v19 (F := Ideal) x0 x1 x2 x3 x4 x5 x6 x7 x8 x9 = Spec.rnew x0 x1 x2 x3 x4 x5 x6 x7 x8 x9 := by
  funext i
  rw [rnew_row, ref_xnew]
  rfl

end Cert.RefRow
-- ==== Proof.FiniteInputs.lean ====
/-
  The precondition, read back: every entry of every argument array is a real number.

  The precondition is the conjunction, over the ten arguments, of "every entry has absolute value below +inf". On the
  extended reals `|x| < ⊤` excludes both infinities, so each entry is the image of a real.
-/
import proofs.«105457_j18116172054562_2_alg».proof.Pre_finite_inputs
import Idealize.ShloMosaic.Lib.ReduceAll
import Idealize.ShloMosaic.Lib.ValueIdx
import Idealize.ShloMosaic.Lib.Pipeline.Value
import proofs.«105457_j18116172054562_2_alg».proof.Proof.LibSplitSum

noncomputable section

namespace Cert.FiniteInputs

open Idealize.ShloMosaic Idealize.ShloMosaic.ValueIdx Cert.LibSplitSum Cert.Pre_finite_inputs

instance : Subsingleton (⟨0, ![]⟩ : Shape).Idx := ⟨fun _ _ => funext fun d => d.elim0⟩

theorem inf_word : Ideal.ofBits .f32 0x7F800000#32 = ⊤ := by simp [Ideal.ofBits, Ideal.ieee]

/-- An extended real whose absolute value is below `⊤` is a real. -/
theorem fin_of_abs_lt (x : EReal)
    (h : Ideal.cmp .olt (FloatOps.hostAbsf (F := Ideal) (φ := .f32) x) (Ideal.ofBits .f32 0x7F800000#32) = 1#1) : Fin' x := by
  rw [inf_word] at h
  have h' : max x (-x) < ⊤ := by
    by_contra hc
    have : Ideal.cmp .olt (max x (-x)) ⊤ = 0#1 := by
      unfold Ideal.cmp
      simp [hc]
    have h2 : Ideal.cmp .olt (max x (-x)) ⊤ = 1#1 := h
    rw [this] at h2
    exact absurd h2 (by decide)
  refine fin'_of_ne ?_ ?_
  · rintro rfl
    simp at h'
  · rintro rfl
    simp at h'

/-- A `jnp.all(|x| < +inf)` that came out 1 says every entry of `x` is a real. -/
theorem all_fin {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) (i : s.Idx) : Fin' (x i) := by
  have h := Host.reduce_andi_all _ _ hr hu ix0 e i
  have hb' : broadcastInDim s ![] hb (constant (F := Ideal) ⟨0, ![]⟩ .f32 0x7F800000#32) i = Ideal.ofBits .f32 0x7F800000#32 :=
    broadcastInDim_apply _ hb _ i ix0 (fun a => a.elim0)
  rw [cmpf_apply, hb'] at h
  exact fin_of_abs_lt (x i) h

variable [Cert.Pre_finite_inputs.Facts]
open Cert.Pre_finite_inputs.Facts

/-- Under the precondition every entry of each of the ten arguments is a real. -/
theorem finite_of_pre (x0 : FVec Ideal S2048x64 .f32) (x1 : FVec Ideal S2048x128 .f32) (x2 x3 x4 : FVec Ideal S2048x2048 .f32)
    (x5 : FVec Ideal S1x2048 .f32) (x6 : FVec Ideal S2048x64 .f32) (x7 : FVec Ideal S64x2048 .f32) (x8 : FVec Ideal S128x2048 .f32)
    (x9 : FVec Ideal S2048x2048 .f32)
    (h : Cert.Pre_finite_inputs.fn (F := Ideal) x0 x1 x2 x3 x4 x5 x6 x7 x8 x9 = fun _ => 1#1) :
    (∀ i, Fin' (x0 i)) ∧ (∀ i, Fin' (x1 i)) ∧ (∀ i, Fin' (x2 i)) ∧ (∀ i, Fin' (x3 i)) ∧ (∀ i, Fin' (x4 i))
      ∧ (∀ i, Fin' (x5 i)) ∧ (∀ i, Fin' (x6 i)) ∧ (∀ i, Fin' (x7 i)) ∧ (∀ i, Fin' (x8 i)) ∧ (∀ i, Fin' (x9 i)) := by
  have h0 := congrFun h ix0
  simp only [Cert.Pre_finite_inputs.fn, Cert.Pre_finite_inputs.fn_part1, Cert.Pre_finite_inputs.fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_fin x0 _ _ _ e0, all_fin x1 _ _ _ e1, all_fin x2 _ _ _ e2, all_fin x3 _ _ _ e3, all_fin x4 _ _ _ e4,
    all_fin x5 _ _ _ e5, all_fin x6 _ _ _ e6, all_fin x7 _ _ _ e7, all_fin x8 _ _ _ e8, all_fin x9 _ _ _ e9⟩

end Cert.FiniteInputs
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.KernelRow.lean ====
/-
  What one grid point's body leaves in its two output blocks, read at an entry.

  The body's arithmetic is a tree of pointwise operations over four groups of three matrix products, each group the
  split form `a·hi + a·lo + (a - a)·hi` of one product. Read at row `p` and column `q` of the block, every product
  into a zero accumulator is the plain sum over its contracted coordinate, so the first output block at `(p, q)`
  is `rowKernel` of row `p` of the point's row-blocks and of the resident matrices, and the second is the kernel's
  soft-plus of the first.
-/
import proofs.«105457_j18116172054562_2_alg».proof.Proof.Gen.KernelIdeal.Value
import proofs.«105457_j18116172054562_2_alg».proof.Proof.LibPlainMatmul
import proofs.«105457_j18116172054562_2_alg».proof.Proof.RowSpec
import proofs.«105457_j18116172054562_2_alg».proof.Proof.Spec
import Idealize.ShloMosaic.Lib.ValueLayout

noncomputable section

namespace Cert.KernelRow

open Cert.KernelIdeal Cert.KernelIdeal.Gen Idealize.ShloMosaic Idealize.ShloMosaic.ValueIdx Cert.RowSpec Cert.LibSplitSum
open scoped BigOperators

/-- Three products into zero accumulators, added left to right, at an entry: the three sums. -/
theorem three_products (M K N : ℕ) {φ₁ φ₂ φ₃ φ₄ φ₅ : FTy} (A : FVec Ideal ⟨2, ![M, K]⟩ φ₁) (A' : FVec Ideal ⟨2, ![M, K]⟩ φ₂)
    (B1 : FVec Ideal ⟨2, ![K, N]⟩ φ₃) (B2 : FVec Ideal ⟨2, ![K, N]⟩ φ₄) (B3 : FVec Ideal ⟨2, ![K, N]⟩ φ₅) (p : Fin M) (q : Fin N) :
    addf (addf (matmul (DotDims.plain M K N) none A B1 (constant (F := Ideal) ⟨2, ![M, N]⟩ .f32 0x00000000#32))
          (matmul (DotDims.plain M K N) none A B2 (constant (F := Ideal) ⟨2, ![M, N]⟩ .f32 0x00000000#32)))
        (matmul (DotDims.plain M K N) none A' B3 (constant (F := Ideal) ⟨2, ![M, N]⟩ .f32 0x00000000#32)) (ix2 p q)
      = ((∑ k : Fin K, A (ix2 p k) * B1 (ix2 k q)) + ∑ k : Fin K, A (ix2 p k) * B2 (ix2 k q))
          + ∑ k : Fin K, A' (ix2 p k) * B3 (ix2 k q) := by
  show _ + _ + _ = _
  rw [LibPlainMatmul.matmul_zero_apply, LibPlainMatmul.matmul_zero_apply, LibPlainMatmul.matmul_zero_apply]

/-- The rates' product with the recurrent weights, split: the three sums over the 2048 presynaptic units. -/
theorem pay5_apply (v0 : Vec Ideal S128x2048 .f32) (v5 v8 : Vec Ideal S2048x2048 .bf16) (p : Fin 128) (q : Fin 2048) :
    k0_pay5 v0 v5 v8 v5 (ix2 p q)
      = ((∑ k : Fin 2048, v0 (ix2 p k) * v5 (ix2 k q)) + ∑ k : Fin 2048, v0 (ix2 p k) * v8 (ix2 k q))
          + ∑ k : Fin 2048, (v0 (ix2 p k) - v0 (ix2 p k)) * v5 (ix2 k q) := by
  unfold k0_pay5 k0_pay3 k0_pay4
  rw [shapeCast_self, shapeCast_self]
  exact three_products 128 2048 2048 (φ₃ := .bf16) (φ₄ := .bf16) (φ₅ := .bf16) _ _ v5 v8 v5 p q

/-- The gated projection onto the 64 low-rank directions, split. -/
theorem pay6_apply (v0 : Vec Ideal S128x2048 .f32) (v16 v19 : Vec Ideal S2048x64 .bf16) (v27 : Vec Ideal S128x64 .f32)
    (p : Fin 128) (j : Fin 64) :
    k0_pay6 v0 v16 v19 v16 v27 (ix2 p j)
      = gatedK (fun k => v0 (ix2 p k)) (fun j => v27 (ix2 p j)) (fun k j => v16 (ix2 k j)) (fun k j => v19 (ix2 k j)) j := by
  unfold k0_pay6 k0_pay3 k0_pay4 gatedK
  rw [shapeCast_self, shapeCast_self]
  exact congrArg (v27 (ix2 p j) * ·) (three_products 128 2048 64 (φ₃ := .bf16) (φ₄ := .bf16) (φ₅ := .bf16) _ _ v16 v19 v16 p j)

/-- The pre-activation sum of one block at an entry. -/
theorem pay10_apply (v15 : FVec Ideal S128x2048 .f32) (v29 v32 : FVec Ideal S128x64 .bf16) (v34 : FVec Ideal S64x2048 .bf16)
    (v36 v40 : Vec Ideal S64x2048 .bf16) (v44 : Vec Ideal S128x128 .f32) (v49 v52 v56 : Vec Ideal S128x2048 .bf16)
    (v60 : Vec Ideal S128x2048 .f32) (v65 : Vec Ideal S1x2048 .f32) (p : Fin 128) (q : Fin 2048) :
    k0_pay10 v15 v29 v32 v34 v36 v40 v44 v49 v52 v56 v60 v65 (ix2 p q)
      = ((((Ideal.ofBits .f32 0x00000000#32 - v60 (ix2 p q)) + v15 (ix2 p q))
          + (((∑ j : Fin 64, v29 (ix2 p j) * v34 (ix2 j q)) + ∑ j : Fin 64, v29 (ix2 p j) * v36 (ix2 j q))
              + ∑ j : Fin 64, v32 (ix2 p j) * v40 (ix2 j q)))
          + v65 (ix2 (0 : Fin 1) q))
        + (((∑ k : Fin 128, v44 (ix2 p k) * v49 (ix2 k q)) + ∑ k : Fin 128, v44 (ix2 p k) * v52 (ix2 k q))
              + ∑ k : Fin 128, (v44 (ix2 p k) - v44 (ix2 p k)) * v56 (ix2 k q)) := by
  unfold k0_pay10
  rw [shapeCast_self, shapeCast_self, shapeCast_self, shapeCast_self, shapeCast_self]
  have e1 := three_products 128 64 2048 (φ₁ := .bf16) (φ₂ := .bf16) (φ₃ := .bf16) (φ₄ := .bf16) (φ₅ := .bf16) v29 v32 v34 v36 v40 p q
  have e2 := three_products 128 128 2048 (φ₁ := .bf16) (φ₂ := .bf16) (φ₃ := .bf16) (φ₄ := .bf16) (φ₅ := .bf16)
    (truncf .bf16 (φ := .f32) v44 bitsLt_bf16_f32) (truncf .bf16 (φ := .f32) (subf (φ := .f32) v44 v44) bitsLt_bf16_f32) v49 v52 v56 p q
  have e3 := broadcastTo_1b_ab_apply (a := 128) (b := 2048) v65 broadcasts_S1x2048_S128x2048 p q
  exact congrArg₂ (· + ·) (congrArg₂ (· + ·) (congrArg (_ + ·) e1) e3) e2

theorem whole_zero : (![0, 0] : Fin 2 → ℕ) = fun _ => 0 :=
  funext fun a => by match a with | ⟨0, _⟩ => rfl | ⟨1, _⟩ => rfl

/-- The first output block at `(p, q)`: the split row of row `p`. -/
theorem out14_apply (x0 : Vec Ideal S128x2048 .f32) (x1 x2 : Vec Ideal S2048x2048 .bf16) (x3 x4 : Vec Ideal S2048x64 .bf16) (x5 x6 : Vec Ideal S64x2048 .bf16) (x7 : Vec Ideal S128x64 .f32) (x8 : Vec Ideal S128x128 .f32) (x9 x10 : Vec Ideal S128x2048 .bf16) (x11 : Vec Ideal S1x2048 .f32) (x12 x13 : Vec Ideal S128x2048 .f32) (p : Fin 128) (q : Fin 2048) :
    out0_14 x0 x1 x2 x3 x4 x5 x6 x7 x8 x9 x10 x11 x12 x13 (ix2 p q)
      = rowKernel (Ideal.ofBits .f32 0x00000000#32) (fun q' => x13 (ix2 p q')) (fun k => x0 (ix2 p k)) (fun j => x7 (ix2 p j))
        (fun k => x8 (ix2 p k)) (fun q' => x12 (ix2 p q')) (fun k q' => x1 (ix2 k q')) (fun k q' => x2 (ix2 k q'))
        (fun k j => x3 (ix2 k j)) (fun k j => x4 (ix2 k j)) (fun j q' => x5 (ix2 j q')) (fun j q' => x6 (ix2 j q'))
        (fun k q' => x9 (ix2 k q')) (fun k q' => x10 (ix2 k q')) (fun q' => x11 (ix2 (0 : Fin 1) q')) q := by
  unfold out0_14
  rw [View.canon_unit_zero whole_zero]
  simp only [View.ld_unit_zero (S := S128x2048) whole_zero, View.ld_unit_zero (S := S2048x2048) whole_zero,
    View.ld_unit_zero (S := S2048x64) whole_zero, View.ld_unit_zero (S := S128x64) whole_zero,
    View.ld_unit_zero (S := S64x2048) whole_zero, View.ld_unit_zero (S := S128x128) whole_zero,
    View.ld_unit_zero (S := S1x2048) whole_zero]
  unfold k0_pay1 k0_pay7 k0_pay8 k0_pay9
  show x13 (ix2 p q) + cStep * (k0_pay10 (F := Ideal) _ _ _ _ _ _ _ _ _ _ _ _ (ix2 p q) + cSigma * x12 (ix2 p q)) = _
  rw [pay10_apply, pay5_apply, shapeCast_self]
  simp only [truncf_apply, subf_apply, pay6_apply]
  rfl

/-- The second output block at `(p, q)`: the kernel's soft-plus of the first. -/
theorem out15_apply (x0 : Vec Ideal S128x2048 .f32) (x1 x2 : Vec Ideal S2048x2048 .bf16) (x3 x4 : Vec Ideal S2048x64 .bf16) (x5 x6 : Vec Ideal S64x2048 .bf16) (x7 : Vec Ideal S128x64 .f32) (x8 : Vec Ideal S128x128 .f32) (x9 x10 : Vec Ideal S128x2048 .bf16) (x11 : Vec Ideal S1x2048 .f32) (x12 x13 : Vec Ideal S128x2048 .f32) (y : S128x2048.Idx) :
    out0_15 x0 x1 x2 x3 x4 x5 x6 x7 x8 x9 x10 x11 x12 x13 y = softK (Ideal.ofBits .f32 0x00000000#32) (out0_14 x0 x1 x2 x3 x4 x5 x6 x7 x8 x9 x10 x11 x12 x13 y) := by
  unfold out0_15 out0_14
  rw [View.canon_unit_zero whole_zero, View.canon_unit_zero whole_zero]
  rfl

/-- When a point's row-blocks hold row `R` of the row arrays, its resident blocks the weights (the low-rank
    factors transposed), and its low-part blocks zero, the first output block at `(p, q)` is the specification's new
    state at `(R, q)`: finiteness of the rates, gates, stimulus and of the first low-rank factor makes every `a - a` vanish. -/
theorem block_xnew (x0 : Vec Ideal S128x2048 .f32) (x1 x2 : Vec Ideal S2048x2048 .bf16) (x3 x4 : Vec Ideal S2048x64 .bf16) (x5 x6 : Vec Ideal S64x2048 .bf16) (x7 : Vec Ideal S128x64 .f32) (x8 : Vec Ideal S128x128 .f32) (x9 x10 : Vec Ideal S128x2048 .bf16) (x11 : Vec Ideal S1x2048 .f32) (x12 x13 : Vec Ideal S128x2048 .f32)
    (a0 : (⟨2, ![2048, 64]⟩ : Shape).Idx → EReal) (a1 : (⟨2, ![2048, 128]⟩ : Shape).Idx → EReal) (a2 a3 a4 : (⟨2, ![2048, 2048]⟩ : Shape).Idx → EReal) (a5 : (⟨2, ![1, 2048]⟩ : Shape).Idx → EReal)
    (a6 : (⟨2, ![2048, 64]⟩ : Shape).Idx → EReal) (a7 : (⟨2, ![64, 2048]⟩ : Shape).Idx → EReal) (a8 : (⟨2, ![128, 2048]⟩ : Shape).Idx → EReal) (a9 : (⟨2, ![2048, 2048]⟩ : Shape).Idx → EReal) (R : Fin 2048) (p : Fin 128) (q : Fin 2048)
    (h13 : ∀ q', (x13 (ix2 p q') : EReal) = a2 (ix2 R q')) (h0 : ∀ k, (x0 (ix2 p k) : EReal) = a3 (ix2 R k))
    (h7 : ∀ j, (x7 (ix2 p j) : EReal) = a0 (ix2 R j)) (h8 : ∀ k, (x8 (ix2 p k) : EReal) = a1 (ix2 R k))
    (h12 : ∀ q', (x12 (ix2 p q') : EReal) = a9 (ix2 R q'))
    (h1 : ∀ k q', (x1 (ix2 k q') : EReal) = a4 (ix2 k q')) (h2 : ∀ k q', (x2 (ix2 k q') : EReal) = 0)
    (h3 : ∀ k j, (x3 (ix2 k j) : EReal) = a7 (ix2 j k)) (h4 : ∀ k j, (x4 (ix2 k j) : EReal) = 0)
    (h5 : ∀ j q', (x5 (ix2 j q') : EReal) = a6 (ix2 q' j)) (h6 : ∀ j q', (x6 (ix2 j q') : EReal) = 0)
    (h9 : ∀ k q', (x9 (ix2 k q') : EReal) = a8 (ix2 k q')) (h10 : ∀ k q', (x10 (ix2 k q') : EReal) = 0)
    (h11 : ∀ q', (x11 (ix2 (0 : Fin 1) q') : EReal) = a5 (ix2 (0 : Fin 1) q'))
    (f3 : ∀ i, Fin' (a3 i)) (f0 : ∀ i, Fin' (a0 i)) (f1 : ∀ i, Fin' (a1 i)) (f7 : ∀ i, Fin' (a7 i)) :
    out0_14 x0 x1 x2 x3 x4 x5 x6 x7 x8 x9 x10 x11 x12 x13 (ix2 p q) = Spec.xnew a0 a1 a2 a3 a4 a5 a6 a7 a8 a9 (ix2 R q) := by
  rw [out14_apply]
  rw [rowKernel_eq _ Ideal.ofBits_zero_f32 _ _ _ _ _ _ _ _ _ _ _ _ _ _ q
    (fun k => by show Fin' (x0 (ix2 p k)); rw [h0]; exact f3 _)
    (fun j => by show Fin' (x7 (ix2 p j)); rw [h7]; exact f0 _)
    (fun k => by show Fin' (x8 (ix2 p k)); rw [h8]; exact f1 _)
    (fun k j => by show Fin' (x3 (ix2 k j)); rw [h3]; exact f7 _)
    h2 h4 h6 h10]
  unfold Spec.xnew
  simp only [h13, h0, h7, h8, h12, h1, h3, h5, h9, h11]

/-- Under the same conditions the second output block is the specification's new rates. -/
theorem block_rnew (x0 : Vec Ideal S128x2048 .f32) (x1 x2 : Vec Ideal S2048x2048 .bf16) (x3 x4 : Vec Ideal S2048x64 .bf16) (x5 x6 : Vec Ideal S64x2048 .bf16) (x7 : Vec Ideal S128x64 .f32) (x8 : Vec Ideal S128x128 .f32) (x9 x10 : Vec Ideal S128x2048 .bf16) (x11 : Vec Ideal S1x2048 .f32) (x12 x13 : Vec Ideal S128x2048 .f32)
    (a0 : (⟨2, ![2048, 64]⟩ : Shape).Idx → EReal) (a1 : (⟨2, ![2048, 128]⟩ : Shape).Idx → EReal) (a2 a3 a4 : (⟨2, ![2048, 2048]⟩ : Shape).Idx → EReal) (a5 : (⟨2, ![1, 2048]⟩ : Shape).Idx → EReal)
    (a6 : (⟨2, ![2048, 64]⟩ : Shape).Idx → EReal) (a7 : (⟨2, ![64, 2048]⟩ : Shape).Idx → EReal) (a8 : (⟨2, ![128, 2048]⟩ : Shape).Idx → EReal) (a9 : (⟨2, ![2048, 2048]⟩ : Shape).Idx → EReal) (R : Fin 2048) (p : Fin 128) (q : Fin 2048)
    (h13 : ∀ q', (x13 (ix2 p q') : EReal) = a2 (ix2 R q')) (h0 : ∀ k, (x0 (ix2 p k) : EReal) = a3 (ix2 R k))
    (h7 : ∀ j, (x7 (ix2 p j) : EReal) = a0 (ix2 R j)) (h8 : ∀ k, (x8 (ix2 p k) : EReal) = a1 (ix2 R k))
    (h12 : ∀ q', (x12 (ix2 p q') : EReal) = a9 (ix2 R q'))
    (h1 : ∀ k q', (x1 (ix2 k q') : EReal) = a4 (ix2 k q')) (h2 : ∀ k q', (x2 (ix2 k q') : EReal) = 0)
    (h3 : ∀ k j, (x3 (ix2 k j) : EReal) = a7 (ix2 j k)) (h4 : ∀ k j, (x4 (ix2 k j) : EReal) = 0)
    (h5 : ∀ j q', (x5 (ix2 j q') : EReal) = a6 (ix2 q' j)) (h6 : ∀ j q', (x6 (ix2 j q') : EReal) = 0)
    (h9 : ∀ k q', (x9 (ix2 k q') : EReal) = a8 (ix2 k q')) (h10 : ∀ k q', (x10 (ix2 k q') : EReal) = 0)
    (h11 : ∀ q', (x11 (ix2 (0 : Fin 1) q') : EReal) = a5 (ix2 (0 : Fin 1) q'))
    (f3 : ∀ i, Fin' (a3 i)) (f0 : ∀ i, Fin' (a0 i)) (f1 : ∀ i, Fin' (a1 i)) (f7 : ∀ i, Fin' (a7 i)) :
    out0_15 x0 x1 x2 x3 x4 x5 x6 x7 x8 x9 x10 x11 x12 x13 (ix2 p q) = Spec.rnew a0 a1 a2 a3 a4 a5 a6 a7 a8 a9 (ix2 R q) := by
  rw [out15_apply, block_xnew x0 x1 x2 x3 x4 x5 x6 x7 x8 x9 x10 x11 x12 x13 a0 a1 a2 a3 a4 a5 a6 a7 a8 a9 R p q h13 h0 h7 h8 h12 h1 h2 h3 h4 h5 h6 h9 h10 h11 f3 f0 f1 f7]
  exact softK_eq _ Ideal.ofBits_zero_f32 _

end Cert.KernelRow
-- ==== Proof.HostWindows.lean ====
/-
  The operands the host prepares before the call, as the region finds them.

  Each weight matrix is passed as a high part and a low part. On the extended reals a change of format is the
  identity, so the high part of a matrix `a` is `a` itself (for the two low-rank factors: its transpose) and the low
  part is `a - a` entry by entry, which is `0` wherever `a` is finite.
-/
import proofs.«105457_j18116172054562_2_alg».proof.Proof.Gen.KernelIdeal.Value
import Idealize.ShloMosaic.Lib.StableHlo.Run
import Idealize.ShloMosaic.Lib.ValueLayout
import proofs.«105457_j18116172054562_2_alg».proof.Proof.LibSplitSum

noncomputable section

namespace Cert.HostWindows

open Cert.KernelIdeal Cert.KernelIdeal.Gen Idealize.ShloMosaic Idealize.ShloMosaic.TcCoe Idealize.SL.Sem
open Idealize.ShloMosaic.ValueIdx Idealize.ShloMosaic.StableHlo Cert.LibSplitSum

variable (m : (ℓ : Loc nD τ sig) → Buf (Elt Ideal) ℓ)

/-! The ten arguments as arrays of extended reals. -/
abbrev A0 (c : Dev nD) : S2048x64.Idx → EReal := m ((c : Thread nD τ).loc main_arg0)
abbrev A1 (c : Dev nD) : S2048x128.Idx → EReal := m ((c : Thread nD τ).loc main_arg1)
abbrev A2 (c : Dev nD) : S2048x2048.Idx → EReal := m ((c : Thread nD τ).loc main_arg2)
abbrev A3 (c : Dev nD) : S2048x2048.Idx → EReal := m ((c : Thread nD τ).loc main_arg3)
abbrev A4 (c : Dev nD) : S2048x2048.Idx → EReal := m ((c : Thread nD τ).loc main_arg4)
abbrev A5 (c : Dev nD) : S1x2048.Idx → EReal := m ((c : Thread nD τ).loc main_arg5)
abbrev A6 (c : Dev nD) : S2048x64.Idx → EReal := m ((c : Thread nD τ).loc main_arg6)
abbrev A7 (c : Dev nD) : S64x2048.Idx → EReal := m ((c : Thread nD τ).loc main_arg7)
abbrev A8 (c : Dev nD) : S128x2048.Idx → EReal := m ((c : Thread nD τ).loc main_arg8)
abbrev A9 (c : Dev nD) : S2048x2048.Idx → EReal := m ((c : Thread nD τ).loc main_arg9)

/-- The recurrent weights' high part is the weights. -/
theorem Jhi (c : Dev nD) (i : S2048x2048.Idx) : (V m c main_v2 : S2048x2048.Idx → EReal) i = A4 m c i := by
  have e : (V m c main_v2 : S2048x2048.Idx → EReal) = A4 m c := by dsimp only [Gen.V, Gen.hostOps0]; after_results; rfl
  rw [e]

/-- Their low part is zero where they are finite. -/
theorem Jlo (c : Dev nD) (hf : ∀ i, Fin' (A4 m c i)) (i : S2048x2048.Idx) : (V m c main_v5 : S2048x2048.Idx → EReal) i = (0 : EReal) := by
  have e : (V m c main_v5 : S2048x2048.Idx → EReal) = fun i => A4 m c i - A4 m c i := by dsimp only [Gen.V, Gen.hostOps0]; after_results; rfl
  rw [e]; exact (hf i).sub_self

/-- The first low-rank factor's high part is its transpose. -/
theorem Vhi (c : Dev nD) (k : Fin 2048) (j : Fin 64) : (V m c main_v6 : S2048x64.Idx → EReal) (ix2 k j) = A7 m c (ix2 j k) := by
  have e : (V m c main_v6 : S2048x64.Idx → EReal) = transpose S2048x64 [1, 0] (A7 m c) transposes_S64x2048_S2048x64_1_0 := by dsimp only [Gen.V, Gen.hostOps0]; after_results; rfl
  rw [e]; exact transpose_ix2_apply (A7 m c) _ k j

theorem Vlo (c : Dev nD) (hf : ∀ i, Fin' (A7 m c i)) (i : S2048x64.Idx) : (V m c main_v9 : S2048x64.Idx → EReal) i = (0 : EReal) := by
  have e : (V m c main_v9 : S2048x64.Idx → EReal) = fun i => transpose S2048x64 [1, 0] (A7 m c) transposes_S64x2048_S2048x64_1_0 i
      - transpose S2048x64 [1, 0] (A7 m c) transposes_S64x2048_S2048x64_1_0 i := by dsimp only [Gen.V, Gen.hostOps0]; after_results; rfl
  rw [e]
  obtain ⟨k, j, rfl⟩ : ∃ (k : Fin 2048) (j : Fin 64), i = ix2 k j := ⟨i 0, i 1, eq_ix2 i⟩
  show transpose S2048x64 [1, 0] (A7 m c) transposes_S64x2048_S2048x64_1_0 (ix2 k j) - transpose S2048x64 [1, 0] (A7 m c) transposes_S64x2048_S2048x64_1_0 (ix2 k j) = 0
  rw [transpose_ix2_apply (A7 m c) _ k j]; exact (hf _).sub_self

/-- The second low-rank factor's high part is its transpose. -/
theorem Uhi (c : Dev nD) (j : Fin 64) (q : Fin 2048) : (V m c main_v10 : S64x2048.Idx → EReal) (ix2 j q) = A6 m c (ix2 q j) := by
  have e : (V m c main_v10 : S64x2048.Idx → EReal) = transpose S64x2048 [1, 0] (A6 m c) transposes_S2048x64_S64x2048_1_0 := by dsimp only [Gen.V, Gen.hostOps0]; after_results; rfl
  rw [e]; exact transpose_ix2_apply (A6 m c) _ j q

theorem Ulo (c : Dev nD) (hf : ∀ i, Fin' (A6 m c i)) (i : S64x2048.Idx) : (V m c main_v13 : S64x2048.Idx → EReal) i = (0 : EReal) := by
  have e : (V m c main_v13 : S64x2048.Idx → EReal) = fun i => transpose S64x2048 [1, 0] (A6 m c) transposes_S2048x64_S64x2048_1_0 i
      - transpose S64x2048 [1, 0] (A6 m c) transposes_S2048x64_S64x2048_1_0 i := by dsimp only [Gen.V, Gen.hostOps0]; after_results; rfl
  rw [e]
  obtain ⟨j, q, rfl⟩ : ∃ (j : Fin 64) (q : Fin 2048), i = ix2 j q := ⟨i 0, i 1, eq_ix2 i⟩
  show transpose S64x2048 [1, 0] (A6 m c) transposes_S2048x64_S64x2048_1_0 (ix2 j q) - transpose S64x2048 [1, 0] (A6 m c) transposes_S2048x64_S64x2048_1_0 (ix2 j q) = 0
  rw [transpose_ix2_apply (A6 m c) _ j q]; exact (hf _).sub_self

/-- The stimulus weights' high part is the weights, their low part zero where finite. -/
theorem Whi (c : Dev nD) (i : S128x2048.Idx) : (V m c main_v14 : S128x2048.Idx → EReal) i = A8 m c i := by
  have e : (V m c main_v14 : S128x2048.Idx → EReal) = A8 m c := by dsimp only [Gen.V, Gen.hostOps0]; after_results; rfl
  rw [e]

theorem Wlo (c : Dev nD) (hf : ∀ i, Fin' (A8 m c i)) (i : S128x2048.Idx) : (V m c main_v17 : S128x2048.Idx → EReal) i = (0 : EReal) := by
  have e : (V m c main_v17 : S128x2048.Idx → EReal) = fun i => A8 m c i - A8 m c i := by dsimp only [Gen.V, Gen.hostOps0]; after_results; rfl
  rw [e]; exact (hf i).sub_self

end Cert.HostWindows
-- ==== Proof.Blocks.lean ====
/-
  From blocks to arrays: after the run the two result arrays are the specification's functions of the arguments.

  The grid has sixteen points; point `t` stages rows `t·128 … t·128 + 127` of the five row arrays (rates, gates,
  stimulus, noise, state), keeps the nine weight operands and the bias resident, and writes rows `t·128 … t·128 + 127`
  of both results. A block entry `(p, q)` of point `t` therefore sits at array entry `(t·128 + p, q)`, every block of
  a resident window is its whole array, and the sixteen output blocks tile the 2048 rows, so each result array is
  what its blocks say, entry by entry.
-/
import proofs.«105457_j18116172054562_2_alg».proof.Proof.Gen.KernelIdeal.Value
import proofs.«105457_j18116172054562_2_alg».proof.Proof.KernelRow
import proofs.«105457_j18116172054562_2_alg».proof.Proof.HostWindows

noncomputable section

namespace Cert.Blocks

open Cert.KernelIdeal Cert.KernelIdeal.Gen Idealize.ShloMosaic Idealize.ShloMosaic.TcCoe Idealize.SL.Sem
open Idealize.ShloMosaic.ValueIdx Cert.LibSplitSum Cert.HostWindows
open Idealize.ShloMosaic.Pipeline (Dat)

variable (m : (ℓ : Loc nD τ sig) → Buf (Elt Ideal) ℓ) (ρ : Dev nD → PrngReg)

/-! ## The printed index maps, decided over the sixteen points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

/-! ## Each input block, read off its array -/

/-- Window 0's block at point `t` holds rows `t·128 … t·128 + 127` of its array. -/
theorem blk0 (c : Dev nD) (t : Fin cfg0.N) (p : Fin 128) (k : Fin 2048) (R : Fin 2048) (hR : R.val = t.val * 128 + p.val) :
    (iblk m c 0 t : S128x2048.Idx → EReal) (ix2 p k) = A3 m c (ix2 R k) := by
  obtain ⟨e0, e1⟩ := idx0 t
  show V m c main_arg3 (((cfg0.win 0).blk t).view.emb (ix2 p k)) = _
  rw [V_main_arg3]
  refine congrArg _ (funext fun a => Fin.ext ?_)
  match a with
  | ⟨0, _⟩ => show win0_0.index t (0 : Fin 2) * 128 + 1 * p.val = R.val; omega
  | ⟨1, _⟩ => show win0_0.index t (1 : Fin 2) * 2048 + 1 * k.val = k.val; omega
/-- Window 1 is resident: its block at every point is its whole array. -/
theorem blk1 (c : Dev nD) (t : Fin cfg0.N) (i : S2048x2048.Idx) :
    (iblk m c 1 t : S2048x2048.Idx → EReal) i = (V m c main_v2 : S2048x2048.Idx → EReal) i := by
  obtain ⟨e0, e1⟩ := idx1 t
  show V m c main_v2 (((cfg0.win 1).blk t).view.emb i) = _
  refine congrArg _ (funext fun a => Fin.ext ?_)
  match a with
  | ⟨0, _⟩ => show win0_1.index t (0 : Fin 2) * 2048 + 1 * (i 0).val = (i 0).val; omega
  | ⟨1, _⟩ => show win0_1.index t (1 : Fin 2) * 2048 + 1 * (i 1).val = (i 1).val; omega
/-- Window 2 is resident: its block at every point is its whole array. -/
theorem blk2 (c : Dev nD) (t : Fin cfg0.N) (i : S2048x2048.Idx) :
    (iblk m c 2 t : S2048x2048.Idx → EReal) i = (V m c main_v5 : S2048x2048.Idx → EReal) i := by
  obtain ⟨e0, e1⟩ := idx2 t
  show V m c main_v5 (((cfg0.win 2).blk t).view.emb i) = _
  refine congrArg _ (funext fun a => Fin.ext ?_)
  match a with
  | ⟨0, _⟩ => show win0_2.index t (0 : Fin 2) * 2048 + 1 * (i 0).val = (i 0).val; omega
  | ⟨1, _⟩ => show win0_2.index t (1 : Fin 2) * 2048 + 1 * (i 1).val = (i 1).val; omega
/-- Window 3 is resident: its block at every point is its whole array. -/
theorem blk3 (c : Dev nD) (t : Fin cfg0.N) (i : S2048x64.Idx) :
    (iblk m c 3 t : S2048x64.Idx → EReal) i = (V m c main_v6 : S2048x64.Idx → EReal) i := by
  obtain ⟨e0, e1⟩ := idx3 t
  show V m c main_v6 (((cfg0.win 3).blk t).view.emb i) = _
  refine congrArg _ (funext fun a => Fin.ext ?_)
  match a with
  | ⟨0, _⟩ => show win0_3.index t (0 : Fin 2) * 2048 + 1 * (i 0).val = (i 0).val; omega
  | ⟨1, _⟩ => show win0_3.index t (1 : Fin 2) * 64 + 1 * (i 1).val = (i 1).val; omega
/-- Window 4 is resident: its block at every point is its whole array. -/
theorem blk4 (c : Dev nD) (t : Fin cfg0.N) (i : S2048x64.Idx) :
    (iblk m c 4 t : S2048x64.Idx → EReal) i = (V m c main_v9 : S2048x64.Idx → EReal) i := by
  obtain ⟨e0, e1⟩ := idx4 t
  show V m c main_v9 (((cfg0.win 4).blk t).view.emb i) = _
  refine congrArg _ (funext fun a => Fin.ext ?_)
  match a with
  | ⟨0, _⟩ => show win0_4.index t (0 : Fin 2) * 2048 + 1 * (i 0).val = (i 0).val; omega
  | ⟨1, _⟩ => show win0_4.index t (1 : Fin 2) * 64 + 1 * (i 1).val = (i 1).val; omega
/-- Window 5 is resident: its block at every point is its whole array. -/
theorem blk5 (c : Dev nD) (t : Fin cfg0.N) (i : S64x2048.Idx) :
    (iblk m c 5 t : S64x2048.Idx → EReal) i = (V m c main_v10 : S64x2048.Idx → EReal) i := by
  obtain ⟨e0, e1⟩ := idx5 t
  show V m c main_v10 (((cfg0.win 5).blk t).view.emb i) = _
  refine congrArg _ (funext fun a => Fin.ext ?_)
  match a with
  | ⟨0, _⟩ => show win0_5.index t (0 : Fin 2) * 64 + 1 * (i 0).val = (i 0).val; omega
  | ⟨1, _⟩ => show win0_5.index t (1 : Fin 2) * 2048 + 1 * (i 1).val = (i 1).val; omega
/-- Window 6 is resident: its block at every point is its whole array. -/
theorem blk6 (c : Dev nD) (t : Fin cfg0.N) (i : S64x2048.Idx) :
    (iblk m c 6 t : S64x2048.Idx → EReal) i = (V m c main_v13 : S64x2048.Idx → EReal) i := by
  obtain ⟨e0, e1⟩ := idx6 t
  show V m c main_v13 (((cfg0.win 6).blk t).view.emb i) = _
  refine congrArg _ (funext fun a => Fin.ext ?_)
  match a with
  | ⟨0, _⟩ => show win0_6.index t (0 : Fin 2) * 64 + 1 * (i 0).val = (i 0).val; omega
  | ⟨1, _⟩ => show win0_6.index t (1 : Fin 2) * 2048 + 1 * (i 1).val = (i 1).val; omega
/-- Window 7's block at point `t` holds rows `t·128 … t·128 + 127` of its array. -/
theorem blk7 (c : Dev nD) (t : Fin cfg0.N) (p : Fin 128) (k : Fin 64) (R : Fin 2048) (hR : R.val = t.val * 128 + p.val) :
    (iblk m c 7 t : S128x64.Idx → EReal) (ix2 p k) = A0 m c (ix2 R k) := by
  obtain ⟨e0, e1⟩ := idx7 t
  show V m c main_arg0 (((cfg0.win 7).blk t).view.emb (ix2 p k)) = _
  rw [V_main_arg0]
  refine congrArg _ (funext fun a => Fin.ext ?_)
  match a with
  | ⟨0, _⟩ => show win0_7.index t (0 : Fin 2) * 128 + 1 * p.val = R.val; omega
  | ⟨1, _⟩ => show win0_7.index t (1 : Fin 2) * 64 + 1 * k.val = k.val; omega
/-- Window 8's block at point `t` holds rows `t·128 … t·128 + 127` of its array. -/
theorem blk8 (c : Dev nD) (t : Fin cfg0.N) (p : Fin 128) (k : Fin 128) (R : Fin 2048) (hR : R.val = t.val * 128 + p.val) :
    (iblk m c 8 t : S128x128.Idx → EReal) (ix2 p k) = A1 m c (ix2 R k) := by
  obtain ⟨e0, e1⟩ := idx8 t
  show V m c main_arg1 (((cfg0.win 8).blk t).view.emb (ix2 p k)) = _
  rw [V_main_arg1]
  refine congrArg _ (funext fun a => Fin.ext ?_)
  match a with
  | ⟨0, _⟩ => show win0_8.index t (0 : Fin 2) * 128 + 1 * p.val = R.val; omega
  | ⟨1, _⟩ => show win0_8.index t (1 : Fin 2) * 128 + 1 * k.val = k.val; omega
/-- Window 9 is resident: its block at every point is its whole array. -/
theorem blk9 (c : Dev nD) (t : Fin cfg0.N) (i : S128x2048.Idx) :
    (iblk m c 9 t : S128x2048.Idx → EReal) i = (V m c main_v14 : S128x2048.Idx → EReal) i := by
  obtain ⟨e0, e1⟩ := idx9 t
  show V m c main_v14 (((cfg0.win 9).blk t).view.emb i) = _
  refine congrArg _ (funext fun a => Fin.ext ?_)
  match a with
  | ⟨0, _⟩ => show win0_9.index t (0 : Fin 2) * 128 + 1 * (i 0).val = (i 0).val; omega
  | ⟨1, _⟩ => show win0_9.index t (1 : Fin 2) * 2048 + 1 * (i 1).val = (i 1).val; omega
/-- Window 10 is resident: its block at every point is its whole array. -/
theorem blk10 (c : Dev nD) (t : Fin cfg0.N) (i : S128x2048.Idx) :
    (iblk m c 10 t : S128x2048.Idx → EReal) i = (V m c main_v17 : S128x2048.Idx → EReal) i := by
  obtain ⟨e0, e1⟩ := idx10 t
  show V m c main_v17 (((cfg0.win 10).blk t).view.emb i) = _
  refine congrArg _ (funext fun a => Fin.ext ?_)
  match a with
  | ⟨0, _⟩ => show win0_10.index t (0 : Fin 2) * 128 + 1 * (i 0).val = (i 0).val; omega
  | ⟨1, _⟩ => show win0_10.index t (1 : Fin 2) * 2048 + 1 * (i 1).val = (i 1).val; omega
/-- Window 11 is resident: its block at every point is its whole array. -/
theorem blk11 (c : Dev nD) (t : Fin cfg0.N) (i : S1x2048.Idx) :
    (iblk m c 11 t : S1x2048.Idx → EReal) i = A5 m c i := by
  obtain ⟨e0, e1⟩ := idx11 t
  show V m c main_arg5 (((cfg0.win 11).blk t).view.emb i) = _
  rw [V_main_arg5]
  refine congrArg _ (funext fun a => Fin.ext ?_)
  match a with
  | ⟨0, _⟩ => show win0_11.index t (0 : Fin 2) * 1 + 1 * (i 0).val = (i 0).val; omega
  | ⟨1, _⟩ => show win0_11.index t (1 : Fin 2) * 2048 + 1 * (i 1).val = (i 1).val; omega
/-- Window 12's block at point `t` holds rows `t·128 … t·128 + 127` of its array. -/
theorem blk12 (c : Dev nD) (t : Fin cfg0.N) (p : Fin 128) (k : Fin 2048) (R : Fin 2048) (hR : R.val = t.val * 128 + p.val) :
    (iblk m c 12 t : S128x2048.Idx → EReal) (ix2 p k) = A9 m c (ix2 R k) := by
  obtain ⟨e0, e1⟩ := idx12 t
  show V m c main_arg9 (((cfg0.win 12).blk t).view.emb (ix2 p k)) = _
  rw [V_main_arg9]
  refine congrArg _ (funext fun a => Fin.ext ?_)
  match a with
  | ⟨0, _⟩ => show win0_12.index t (0 : Fin 2) * 128 + 1 * p.val = R.val; omega
  | ⟨1, _⟩ => show win0_12.index t (1 : Fin 2) * 2048 + 1 * k.val = k.val; omega
/-- Window 13's block at point `t` holds rows `t·128 … t·128 + 127` of its array. -/
theorem blk13 (c : Dev nD) (t : Fin cfg0.N) (p : Fin 128) (k : Fin 2048) (R : Fin 2048) (hR : R.val = t.val * 128 + p.val) :
    (iblk m c 13 t : S128x2048.Idx → EReal) (ix2 p k) = A2 m c (ix2 R k) := by
  obtain ⟨e0, e1⟩ := idx13 t
  show V m c main_arg2 (((cfg0.win 13).blk t).view.emb (ix2 p k)) = _
  rw [V_main_arg2]
  refine congrArg _ (funext fun a => Fin.ext ?_)
  match a with
  | ⟨0, _⟩ => show win0_13.index t (0 : Fin 2) * 128 + 1 * p.val = R.val; omega
  | ⟨1, _⟩ => show win0_13.index t (1 : Fin 2) * 2048 + 1 * k.val = k.val; omega

/-! ## What a point writes back -/

/-- What point `t` writes back to output window 14 is block `t` of the specification's new state. -/
theorem flushed14_eq (c : Dev nD) (f0 : ∀ i, Fin' (A0 m c i)) (f1 : ∀ i, Fin' (A1 m c i)) (f3 : ∀ i, Fin' (A3 m c i)) (f4 : ∀ i, Fin' (A4 m c i))
    (f6 : ∀ i, Fin' (A6 m c i)) (f7 : ∀ i, Fin' (A7 m c i)) (f8 : ∀ i, Fin' (A8 m c i)) (t : Fin cfg0.N) :
    (dats m 0 c).flushed 14 t = ((cfg0.win 14).blk t).view.read (Elt Ideal) (Spec.xnew (A0 m c) (A1 m c) (A2 m c) (A3 m c) (A4 m c) (A5 m c) (A6 m c) (A7 m c) (A8 m c) (A9 m c)) := by
  show (cfg0.win 14).cut (grid0.coords t) ((dats m 0 c).after 14 t) = _
  rw [after0_14]
  funext j
  obtain ⟨p, q, rfl⟩ : ∃ (p : Fin 128) (q : Fin 2048), j = ix2 p q := ⟨j 0, j 1, eq_ix2 j⟩
  obtain ⟨e0, e1⟩ := idx14 t
  have ht : t.val < 16 := t.isLt
  have hp : p.val < 128 := p.isLt
  have hR : t.val * 128 + p.val < 2048 := by omega
  have hemb : ((cfg0.win 14).blk t).view.emb (ix2 p q) = ix2 (⟨t.val * 128 + p.val, hR⟩ : Fin 2048) q :=
    funext fun a => Fin.ext (by
      match a with
      | ⟨0, _⟩ => show win0_14.index t (0 : Fin 2) * 128 + 1 * p.val = t.val * 128 + p.val; omega
      | ⟨1, _⟩ => show win0_14.index t (1 : Fin 2) * 2048 + 1 * q.val = q.val; omega)
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q)
    = Spec.xnew (A0 m c) (A1 m c) (A2 m c) (A3 m c) (A4 m c) (A5 m c) (A6 m c) (A7 m c) (A8 m c) (A9 m c) (((cfg0.win 14).blk t).view.emb (ix2 p q))
  rw [hemb]
  exact KernelRow.block_xnew (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (A0 m c) (A1 m c) (A2 m c) (A3 m c) (A4 m c) (A5 m c) (A6 m c) (A7 m c) (A8 m c) (A9 m c) ⟨t.val * 128 + p.val, hR⟩ p q
    (fun q' => blk13 m c t p q' ⟨t.val * 128 + p.val, hR⟩ rfl) (fun k => blk0 m c t p k ⟨t.val * 128 + p.val, hR⟩ rfl)
    (fun j => blk7 m c t p j ⟨t.val * 128 + p.val, hR⟩ rfl) (fun k => blk8 m c t p k ⟨t.val * 128 + p.val, hR⟩ rfl)
    (fun q' => blk12 m c t p q' ⟨t.val * 128 + p.val, hR⟩ rfl)
    (fun k q' => (blk1 m c t (ix2 k q')).trans (Jhi m c (ix2 k q'))) (fun k q' => (blk2 m c t (ix2 k q')).trans (Jlo m c f4 (ix2 k q')))
    (fun k j => (blk3 m c t (ix2 k j)).trans (Vhi m c k j)) (fun k j => (blk4 m c t (ix2 k j)).trans (Vlo m c f7 (ix2 k j)))
    (fun j q' => (blk5 m c t (ix2 j q')).trans (Uhi m c j q')) (fun j q' => (blk6 m c t (ix2 j q')).trans (Ulo m c f6 (ix2 j q')))
    (fun k q' => (blk9 m c t (ix2 k q')).trans (Whi m c (ix2 k q'))) (fun k q' => (blk10 m c t (ix2 k q')).trans (Wlo m c f8 (ix2 k q')))
    (fun q' => blk11 m c t (ix2 (0 : Fin 1) q')) f3 f0 f1 f7

/-- What point `t` writes back to output window 15 is block `t` of the specification's new rates. -/
theorem flushed15_eq (c : Dev nD) (f0 : ∀ i, Fin' (A0 m c i)) (f1 : ∀ i, Fin' (A1 m c i)) (f3 : ∀ i, Fin' (A3 m c i)) (f4 : ∀ i, Fin' (A4 m c i))
    (f6 : ∀ i, Fin' (A6 m c i)) (f7 : ∀ i, Fin' (A7 m c i)) (f8 : ∀ i, Fin' (A8 m c i)) (t : Fin cfg0.N) :
    (dats m 0 c).flushed 15 t = ((cfg0.win 15).blk t).view.read (Elt Ideal) (Spec.rnew (A0 m c) (A1 m c) (A2 m c) (A3 m c) (A4 m c) (A5 m c) (A6 m c) (A7 m c) (A8 m c) (A9 m c)) := by
  show (cfg0.win 15).cut (grid0.coords t) ((dats m 0 c).after 15 t) = _
  rw [after0_15]
  funext j
  obtain ⟨p, q, rfl⟩ : ∃ (p : Fin 128) (q : Fin 2048), j = ix2 p q := ⟨j 0, j 1, eq_ix2 j⟩
  obtain ⟨e0, e1⟩ := idx15 t
  have ht : t.val < 16 := t.isLt
  have hp : p.val < 128 := p.isLt
  have hR : t.val * 128 + p.val < 2048 := by omega
  have hemb : ((cfg0.win 15).blk t).view.emb (ix2 p q) = ix2 (⟨t.val * 128 + p.val, hR⟩ : Fin 2048) q :=
    funext fun a => Fin.ext (by
      match a with
      | ⟨0, _⟩ => show win0_15.index t (0 : Fin 2) * 128 + 1 * p.val = t.val * 128 + p.val; omega
      | ⟨1, _⟩ => show win0_15.index t (1 : Fin 2) * 2048 + 1 * q.val = q.val; omega)
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q)
    = Spec.rnew (A0 m c) (A1 m c) (A2 m c) (A3 m c) (A4 m c) (A5 m c) (A6 m c) (A7 m c) (A8 m c) (A9 m c) (((cfg0.win 15).blk t).view.emb (ix2 p q))
  rw [hemb]
  exact KernelRow.block_rnew (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (A0 m c) (A1 m c) (A2 m c) (A3 m c) (A4 m c) (A5 m c) (A6 m c) (A7 m c) (A8 m c) (A9 m c) ⟨t.val * 128 + p.val, hR⟩ p q
    (fun q' => blk13 m c t p q' ⟨t.val * 128 + p.val, hR⟩ rfl) (fun k => blk0 m c t p k ⟨t.val * 128 + p.val, hR⟩ rfl)
    (fun j => blk7 m c t p j ⟨t.val * 128 + p.val, hR⟩ rfl) (fun k => blk8 m c t p k ⟨t.val * 128 + p.val, hR⟩ rfl)
    (fun q' => blk12 m c t p q' ⟨t.val * 128 + p.val, hR⟩ rfl)
    (fun k q' => (blk1 m c t (ix2 k q')).trans (Jhi m c (ix2 k q'))) (fun k q' => (blk2 m c t (ix2 k q')).trans (Jlo m c f4 (ix2 k q')))
    (fun k j => (blk3 m c t (ix2 k j)).trans (Vhi m c k j)) (fun k j => (blk4 m c t (ix2 k j)).trans (Vlo m c f7 (ix2 k j)))
    (fun j q' => (blk5 m c t (ix2 j q')).trans (Uhi m c j q')) (fun j q' => (blk6 m c t (ix2 j q')).trans (Ulo m c f6 (ix2 j q')))
    (fun k q' => (blk9 m c t (ix2 k q')).trans (Whi m c (ix2 k q'))) (fun k q' => (blk10 m c t (ix2 k q')).trans (Wlo m c f8 (ix2 k q')))
    (fun q' => blk11 m c t (ix2 (0 : Fin 1) q')) f3 f0 f1 f7

/-! ## The cover -/

/-- An index of the array is in point `t`'s block iff each coordinate is in the block's range on its axis. -/
theorem mem_blk14 (t : Fin cfg0.N) (i : S2048x2048.Idx) :
    i ∈ ((cfg0.win 14).blk t).view.set ↔ ∀ a : Fin 2, win0_14.index t a * S128x2048.size a ≤ (i a).val ∧ (i a).val < win0_14.index t a * S128x2048.size a + S128x2048.size a := by
  show i ∈ ((View.whole main_v18_0).slice (win0_14.rect t)).set ↔ _
  rw [View.set_slice_whole, Rect.mem_set_unit]
  exact Iff.rfl

/-- The sixteen row blocks tile the array: row `r` is in the block of point `r / 128`. -/
theorem cover14 (i : S2048x2048.Idx) : ∃ t : Fin cfg0.N, (cfg0.win 14).flush t = true ∧ i ∈ ((cfg0.win 14).blk t).view.set := by
  have hi0 : (i 0).val < 2048 := (i 0).isLt
  have hi1 : (i 1).val < 2048 := (i 1).isLt
  have hlt : (i 0).val / 128 < 16 := by omega
  obtain ⟨e0, e1⟩ := idx14 (⟨(i 0).val / 128, hlt⟩ : Fin cfg0.N)
  refine ⟨⟨(i 0).val / 128, hlt⟩, flush0_14 _, ?_⟩
  rw [mem_blk14]
  intro a
  match a with
  | ⟨0, _⟩ =>
    show win0_14.index ⟨(i 0).val / 128, hlt⟩ (0 : Fin 2) * 128 ≤ (i 0).val ∧ (i 0).val < win0_14.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_14.index ⟨(i 0).val / 128, hlt⟩ (1 : Fin 2) * 2048 ≤ (i 1).val ∧ (i 1).val < win0_14.index ⟨(i 0).val / 128, hlt⟩ (1 : Fin 2) * 2048 + 2048
    rw [e1]; omega

/-- An index of the array is in point `t`'s block iff each coordinate is in the block's range on its axis. -/
theorem mem_blk15 (t : Fin cfg0.N) (i : S2048x2048.Idx) :
    i ∈ ((cfg0.win 15).blk t).view.set ↔ ∀ a : Fin 2, win0_15.index t a * S128x2048.size a ≤ (i a).val ∧ (i a).val < win0_15.index t a * S128x2048.size a + S128x2048.size a := by
  show i ∈ ((View.whole main_v18_1).slice (win0_15.rect t)).set ↔ _
  rw [View.set_slice_whole, Rect.mem_set_unit]
  exact Iff.rfl

/-- The sixteen row blocks tile the array: row `r` is in the block of point `r / 128`. -/
theorem cover15 (i : S2048x2048.Idx) : ∃ t : Fin cfg0.N, (cfg0.win 15).flush t = true ∧ i ∈ ((cfg0.win 15).blk t).view.set := by
  have hi0 : (i 0).val < 2048 := (i 0).isLt
  have hi1 : (i 1).val < 2048 := (i 1).isLt
  have hlt : (i 0).val / 128 < 16 := by omega
  obtain ⟨e0, e1⟩ := idx15 (⟨(i 0).val / 128, hlt⟩ : Fin cfg0.N)
  refine ⟨⟨(i 0).val / 128, hlt⟩, flush0_15 _, ?_⟩
  rw [mem_blk15]
  intro a
  match a with
  | ⟨0, _⟩ =>
    show win0_15.index ⟨(i 0).val / 128, hlt⟩ (0 : Fin 2) * 128 ≤ (i 0).val ∧ (i 0).val < win0_15.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_15.index ⟨(i 0).val / 128, hlt⟩ (1 : Fin 2) * 2048 ≤ (i 1).val ∧ (i 1).val < win0_15.index ⟨(i 0).val / 128, hlt⟩ (1 : Fin 2) * 2048 + 2048
    rw [e1]; omega

/-! ## The arrays after the run -/

theorem final14 (c : Dev nD) (f0 : ∀ i, Fin' (A0 m c i)) (f1 : ∀ i, Fin' (A1 m c i)) (f3 : ∀ i, Fin' (A3 m c i)) (f4 : ∀ i, Fin' (A4 m c i))
    (f6 : ∀ i, Fin' (A6 m c i)) (f7 : ∀ i, Fin' (A7 m c i)) (f8 : ∀ i, Fin' (A8 m c i)) :
    (dats m 0 c).arrAt 14 cfg0.N = Spec.xnew (A0 m c) (A1 m c) (A2 m c) (A3 m c) (A4 m c) (A5 m c) (A6 m c) (A7 m c) (A8 m c) (A9 m c) :=
  (dats m 0 c).arrAt_eq_of_cover 14 (Spec.xnew (A0 m c) (A1 m c) (A2 m c) (A3 m c) (A4 m c) (A5 m c) (A6 m c) (A7 m c) (A8 m c) (A9 m c)) (fun t _ => flushed14_eq m c f0 f1 f3 f4 f6 f7 f8 t) cover14

theorem final15 (c : Dev nD) (f0 : ∀ i, Fin' (A0 m c i)) (f1 : ∀ i, Fin' (A1 m c i)) (f3 : ∀ i, Fin' (A3 m c i)) (f4 : ∀ i, Fin' (A4 m c i))
    (f6 : ∀ i, Fin' (A6 m c i)) (f7 : ∀ i, Fin' (A7 m c i)) (f8 : ∀ i, Fin' (A8 m c i)) :
    (dats m 0 c).arrAt 15 cfg0.N = Spec.rnew (A0 m c) (A1 m c) (A2 m c) (A3 m c) (A4 m c) (A5 m c) (A6 m c) (A7 m c) (A8 m c) (A9 m c) :=
  (dats m 0 c).arrAt_eq_of_cover 15 (Spec.rnew (A0 m c) (A1 m c) (A2 m c) (A3 m c) (A4 m c) (A5 m c) (A6 m c) (A7 m c) (A8 m c) (A9 m c)) (fun t _ => flushed15_eq m c f0 f1 f3 f4 f6 f7 f8 t) cover15

/-- The idealized kernel's run: both result arrays at the specification, the arguments unchanged. -/
theorem run (hf : ∀ c : Dev nD, (∀ i, Fin' (A0 m c i)) ∧ (∀ i, Fin' (A1 m c i)) ∧ (∀ i, Fin' (A2 m c i)) ∧ (∀ i, Fin' (A3 m c i))
      ∧ (∀ i, Fin' (A4 m c i)) ∧ (∀ i, Fin' (A5 m c i)) ∧ (∀ i, Fin' (A6 m c i)) ∧ (∀ i, Fin' (A7 m c i)) ∧ (∀ i, Fin' (A8 m c i))
      ∧ (∀ i, Fin' (A9 m c i))) :
    θ_run defs (onTc (τ := τ) (main (F := Ideal))) ⟨m, fun _ => 0, ρ⟩ fun r => ∀ c : Dev nD,
      r.2.mem ((c : Thread nD τ).loc main_v18_0) = Spec.xnew (A0 m c) (A1 m c) (A2 m c) (A3 m c) (A4 m c) (A5 m c) (A6 m c) (A7 m c) (A8 m c) (A9 m c)
      ∧ r.2.mem ((c : Thread nD τ).loc main_v18_1) = Spec.rnew (A0 m c) (A1 m c) (A2 m c) (A3 m c) (A4 m c) (A5 m c) (A6 m c) (A7 m c) (A8 m c) (A9 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    obtain ⟨f0, f1, _, f3, f4, _, f6, f7, f8, _⟩ := hf c
    exact ⟨(h c).1.trans (final14 m c f0 f1 f3 f4 f6 f7 f8), (h c).2.1.trans (final15 m c f0 f1 f3 f4 f6 f7 f8), (h c).2.2⟩)
    (Cert.KernelIdeal.Value.run_blocks m ρ)

end Cert.Blocks
-- ==== Proof.lean ====
/-
  One step of a rate network with a low-rank gated recurrence, in split precision, against its plain form.

  The kernel computes, sixteen row blocks at a time,
    x' = x + c · ( -x + r·J + (g ⊙ (r·Vᵀ))·Uᵀ + b + s·W + σ·e ),   r' = softplus x',
  writing every matrix product `a·w` as `hi(a)·hi(w) + hi(a)·lo(w) + lo(a)·hi(w)` with `hi` a rounding to a
  narrower format and `lo(a)` the rounded remainder `a - hi(a)`; the reference computes the same expression with
  each product taken once. On the extended reals a rounding is the identity, so `hi(a) = a` and `lo(a) = a - a`,
  which is `0` exactly when `a` is finite: under the precondition (every input entry finite) each split product
  collapses to the plain product, including the one whose left factor is the computed rank-64 intermediate
  `g ⊙ (r·Vᵀ)`, finite as a finite sum of products of finite numbers. The remaining operations are the same on both
  sides in the same order; the soft-plus differs only in writing `-|d|` as `0 - |d|` and in the flavour of a
  comparison that is never true.

  The modules: `LibSplitSum` (the extended-real facts), `RowSpec` (one row of the step, plain and split, and their
  equality), `Spec` (the two results as functions of the ten arguments), `RefRow` (the reference ends at them),
  `LibPlainMatmul` and `KernelRow` (a grid point's two output blocks, entry by entry), `HostWindows` (the operands
  prepared before the call), `FiniteInputs` (the precondition read back), `Blocks` (the sixteen blocks tile the
  arrays). The rounding rule applied three times in the idealized kernel is accounted for by its three statements.
-/
import proofs.«105457_j18116172054562_2_alg».proof.Defs
import proofs.«105457_j18116172054562_2_alg».proof.Proof.Gen.Kernel
import proofs.«105457_j18116172054562_2_alg».proof.Proof.Gen.Kernel.Skeleton
import proofs.«105457_j18116172054562_2_alg».proof.Proof.Gen.Kernel.Launch
import proofs.«105457_j18116172054562_2_alg».proof.Proof.Gen.Kernel.Points
import proofs.«105457_j18116172054562_2_alg».proof.Proof.Gen.Kernel.Frame
import proofs.«105457_j18116172054562_2_alg».proof.Proof.Gen.KernelIdeal
import proofs.«105457_j18116172054562_2_alg».proof.Proof.Gen.KernelIdeal.Skeleton
import proofs.«105457_j18116172054562_2_alg».proof.Proof.Gen.KernelIdeal.Launch
import proofs.«105457_j18116172054562_2_alg».proof.Proof.Gen.KernelIdeal.Points
import proofs.«105457_j18116172054562_2_alg».proof.Proof.Gen.KernelIdeal.Frame
import proofs.«105457_j18116172054562_2_alg».proof.Proof.Gen.ReferenceIdeal
import proofs.«105457_j18116172054562_2_alg».proof.Proof.Gen.Pre_finite_inputs
import proofs.«105457_j18116172054562_2_alg».proof.Proof.Gen.KernelIdeal.Value
import proofs.«105457_j18116172054562_2_alg».proof.Proof.Gen.ReferenceIdeal.Run
import proofs.«105457_j18116172054562_2_alg».proof.Proof.Gen.ReferenceIdeal.Read
import proofs.«105457_j18116172054562_2_alg».proof.Proof.RefRow
import proofs.«105457_j18116172054562_2_alg».proof.Proof.FiniteInputs
import proofs.«105457_j18116172054562_2_alg».proof.Proof.Blocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The three roundings the idealized kernel drops (of the rates, of the rank-64 intermediate, of the stimulus):
    each is the identity on the extended reals and the rounding through the narrower format on words. -/
theorem preserves : Cert.preserves_Kernel_KernelIdeal :=
  ⟨IdealRules.truncf_extf.statement Cert.KernelIdeal.S128x2048 .f32 .bf16,
    IdealRules.truncf_extf.statement Cert.KernelIdeal.S128x64 .f32 .bf16,
    IdealRules.truncf_extf.statement Cert.KernelIdeal.S128x128 .f32 .bf16⟩

/-- Both programs end at the specification's new state and new rates of the arguments they agree on. -/
theorem algebraic : Cert.algebraic_KernelIdeal_ReferenceIdeal := by
  intro m ρ m' ρ' hpre hagree
  have hf := fun c : Dev Cert.KernelIdeal.nD => Cert.FiniteInputs.finite_of_pre _ _ _ _ _ _ _ _ _ _ (hpre c)
  refine ⟨_, _, Cert.Blocks.run m ρ hf, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.RefRow.ref_xnew]
    obtain ⟨e0, e1, e2, e3, e4, e5, e6, e7, e8, e9⟩ := hagree c
    rw [e0, e1, e2, e3, e4, e5, e6, e7, e8, e9]
  · rw [(h c).2.1, Cert.ReferenceIdeal.Read.val_main_v19_eq, Cert.RefRow.ref_rnew]
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
